-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x81 : Shape := ⟨2, ![8192, 81]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel

variable [Facts]

def fn {F : FTy → Type} [FloatOps F] (main_arg0 : FVec F S8192x16 .f32) (main_arg1 : FVec F S8192x16 .f32) (main_arg2 : FVec F S8192x16 .f32) (main_arg3 : IVec S8192x81 32) (main_arg4 : IVec S8192x81 32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S8192x16 : Shape := ⟨2, ![8192, 16]⟩
abbrev S8192x81 : Shape := ⟨2, ![8192, 81]⟩
abbrev S8x1x1 : Shape := ⟨3, ![8, 1, 1]⟩
abbrev S1024x16 : Shape := ⟨2, ![1024, 16]⟩
abbrev S1024x81 : Shape := ⟨2, ![1024, 81]⟩
abbrev S1x1x1 : Shape := ⟨3, ![1, 1, 1]⟩
abbrev S16x1024 : Shape := ⟨2, ![16, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S81x1024 : Shape := ⟨2, ![81, 1024]⟩
abbrev S_ : Shape := ⟨0, ![]⟩
abbrev S8192 : Shape := ⟨1, ![8192]⟩

abbrev nBuf : Space → Nat
  | .hbm => 38
  | .vmem => 12
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x81, .i32⟩
  | .hbm, ⟨4, _⟩ => ⟨S8192x81, .i32⟩
  | .hbm, ⟨5, _⟩ => ⟨S8192x81, .bf16⟩
  | .hbm, ⟨6, _⟩ => ⟨S8192x81, .bf16⟩
  | .hbm, ⟨7, _⟩ => ⟨S8x1x1, .f32⟩
  | .hbm, ⟨8, _⟩ => ⟨S8x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x81, .bf16⟩
  | .local _ .vmem, ⟨5, _⟩ => ⟨S1024x81, .bf16⟩
  | .local _ .vmem, ⟨6, _⟩ => ⟨S1024x81, .bf16⟩
  | .local _ .vmem, ⟨7, _⟩ => ⟨S1024x81, .bf16⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x81 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x81 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  transposes_S1024x16_p1_0_S16x1024 : S1024x16.Transposes [1, 0] S16x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1024x81_S1024x81_0_0 : ∀ a, (![0, 0] : Fin 2 → Nat) a + S1024x81.size a ≤ S1024x81.size a
  h_S1024x81 : 0 < S1024x81.numel
  shapeCasts_S1024x81_S1024x81 : S1024x81.ShapeCasts S1024x81
  transposes_S1024x81_p1_0_S81x1024 : S1024x81.Transposes [1, 0] S81x1024
  natLt_1_32 : 1 < 32
  shapeCasts_S1x1x1_S1x1x1 : S1x1x1.ShapeCasts S1x1x1
  shapeCasts_S1x1_S1x1x1 : S1x1.ShapeCasts S1x1x1
  reducesTo_S8x1x1_S_d0_1_2 : S8x1x1.ReducesTo [0, 1, 2] S_
  h_S_ : 0 < S_.numel
  reducesTo_S8192x16_S_d0_1 : S8192x16.ReducesTo [0, 1] S_
  reducesTo_S8192x16_S8192_d1 : S8192x16.ReducesTo [1] S8192
  reducesTo_S8192_S_d0 : S8192.ReducesTo [0] S_
  dot_S1024x16_S16x1024_S1024x1024_1_0_0_1_n_n_wf : DotDims.WF S1024x16 S16x1024 S1024x1024 [1] [0] [0] [1] [] []
  dot_S1024x81_S81x1024_S1024x1024_1_0_0_1_n_n_wf : DotDims.WF S1024x81 S81x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .f32 = 32 ∨ (Rect.block (s := S8192x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x81.size a ≤ S8192x81.size a
  hwx0_2 : ∀ i : grid0.Coords, EltTy.bits .bf16 = 32 ∨ (Rect.block (s := S8192x81) S1024x81.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x81.size a ≤ S8192x81.size a
  hwx0_3 : ∀ i : grid0.Coords, EltTy.bits .bf16 = 32 ∨ (Rect.block (s := S8192x81) S1024x81.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S8x1x1.size a
  hwx0_5 : ∀ i : grid0.Coords, EltTy.bits .f32 = 32 ∨ (Rect.block (s := S8x1x1) S1x1x1.size (cc0_transform_5 i) (hinb0_5 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x81_S81x1024_S1024x1024_1_0_0_1_n_n : DotDims S1024x81 S81x1024 S1024x1024 where
  lhsContracting := [1]
  rhsContracting := [0]
  lhsNonContracting := [0]
  rhsNonContracting := [1]
  lhsBatch := []
  rhsBatch := []
  wf := dot_S1024x81_S81x1024_S1024x1024_1_0_0_1_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x81.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x81.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x16 : Shape := ⟨2, ![8192, 16]⟩
abbrev S8192x81 : Shape := ⟨2, ![8192, 81]⟩
abbrev S16x8192 : Shape := ⟨2, ![16, 8192]⟩
abbrev S8192x8192 : Shape := ⟨2, ![8192, 8192]⟩
abbrev S_ : Shape := ⟨0, ![]⟩
abbrev S81x8192 : Shape := ⟨2, ![81, 8192]⟩
abbrev S8192 : Shape := ⟨1, ![8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x81, .i32⟩
  | .hbm, ⟨4, _⟩ => ⟨S8192x81, .i32⟩
  | .hbm, ⟨5, _⟩ => ⟨S16x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .i1⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S8192x81, .f32⟩
  | .hbm, ⟨27, _⟩ => ⟨S8192x81, .f32⟩
  | .hbm, ⟨28, _⟩ => ⟨S81x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .i1⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_call1_v0 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_cst_6 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_v29 : Ref sig .tc := ⟨.hbm, 59, rfl⟩
abbrev main_cst_10 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  transposes_S8192x16_S16x8192_1_0 : S8192x16.Transposes [1, 0] S16x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  transposes_S8192x81_S81x8192_1_0 : S8192x81.Transposes [1, 0] S81x8192
  reducesTo_S8192x16_S_d0_1 : S8192x16.ReducesTo [0, 1] S_
  reducesTo_S8192x16_S8192_d1 : S8192x16.ReducesTo [1] S8192
  reducesTo_S8192_S_d0 : S8192.ReducesTo [0] S_
  dot_S8192x16_S16x8192_S8192x8192_1_0_0_1_n_n_wf : DotDims.WF S8192x16 S16x8192 S8192x8192 [1] [0] [0] [1] [] []
  dot_S8192x81_S81x8192_S8192x8192_1_0_0_1_n_n_wf : DotDims.WF S8192x81 S81x8192 S8192x8192 [1] [0] [0] [1] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x81_S81x8192_S8192x8192_1_0_0_1_n_n : DotDims S8192x81 S81x8192 S8192x8192 where
  lhsContracting := [1]
  rhsContracting := [0]
  lhsNonContracting := [0]
  rhsNonContracting := [1]
  lhsBatch := []
  rhsBatch := []
  wf := dot_S8192x81_S81x8192_S8192x8192_1_0_0_1_n_n_wf

class Facts : Prop extends Facts₀ where

variable [Facts]
-- ==== Proof.Terms.lean ====
/-
  The vocabulary of the pairwise hashing loss, over the extended reals, with no program in sight.

  For code matrices F, G, B : [8192, 16] and label matrices I, T : [8192, 81] (signed 32-bit words) both programs compute

      Σ_{a,b} softplus(θ(a,b) / 2)  −  Σ_{a,b} [overlap(a,b) > 0] · θ(a,b)  +  ½ · Σ ((B − F)² + (B − G)²)  +  ½ · (Σ_a (Σ_k F_ak)² + Σ_a (Σ_k G_ak)²)

  where θ(a,b) = ⟨F_a, G_b⟩ and overlap(a,b) = ⟨I_a, T_b⟩. The kernel forms the first two sums tile by tile — a tile is the
  1024 × 1024 square of pairs (row i r, row j c) — while the reference sums over all 8192 × 8192 pairs at once; the last two
  terms are one and the same chain of host operations in both, kept here as ONE function (`tail`) that is never opened.
-/
import Idealize.ShloMosaic.PureOps.Ideal
import Idealize.ShloMosaic.PureOps.Ideal.Laws
import Idealize.ShloMosaic.PureOps.Contract
import Idealize.ShloMosaic.Lib.ValueIdx

noncomputable section

namespace Cert.PairwiseLoss

open Idealize.ShloMosaic Idealize.ShloMosaic.ValueIdx

/-- A code matrix [8192, 16] of extended reals. -/
abbrev Codes := (⟨2, ![8192, 16]⟩ : Shape).Idx → EReal
/-- A label matrix [8192, 81] of 32-bit words. -/
abbrev Labels := (⟨2, ![8192, 81]⟩ : Shape).Idx → BitVec 32

/-- The scale 1/2, as the f32 word both programs print. -/
def half : EReal := Ideal.ofBits .f32 0x3F000000#32

/-- Row `r` of row block `i`: the global row 1024·i + r. -/
def row (i : Fin 8) (r : Fin 1024) : Fin 8192 := ⟨1024 * i.val + r.val, by omega⟩

/-- θ(a,b) = ⟨F_a, G_b⟩. -/
def theta (x0 x1 : Codes) (a b : Fin 8192) : EReal := ∑ k : Fin 16, x0 (ix2 a k) * x1 (ix2 b k)

/-- A label word as the real number it denotes, read signed. -/
def lab (w : BitVec 32) : EReal := ((w.toInt : ℝ) : EReal)

/-- overlap(a,b) = ⟨I_a, T_b⟩: how many classes the two items share, for 0/1 labels. -/
def overlap (x3 x4 : Labels) (a b : Fin 8192) : EReal := ∑ l : Fin 81, lab (x3 (ix2 a l)) * lab (x4 (ix2 b l))

/-- softplus as log-add-exp against zero: max(y, 0) + log(1 + e^{−|y|}). -/
def softplus (y : EReal) : EReal := max y 0 + Ideal.log1p (Ideal.exp (-(max y (-y))))

/-- θ kept where the overlap is positive, else 0. -/
def kept (s θ : EReal) : EReal := if 0 < s then θ else 0

/-- The first sum over all pairs. -/
def sumSoftplus (x0 x1 : Codes) : EReal := ∑ a : Fin 8192, ∑ b : Fin 8192, softplus (theta x0 x1 a b * half)
/-- The second sum over all pairs. -/
def sumKept (x0 x1 : Codes) (x3 x4 : Labels) : EReal :=
  ∑ a : Fin 8192, ∑ b : Fin 8192, kept (overlap x3 x4 a b) (theta x0 x1 a b)

/-- Tile (i, j)'s share of the first sum. -/
def tileSoftplus (x0 x1 : Codes) (i j : Fin 8) : EReal :=
  ∑ r : Fin 1024, ∑ c : Fin 1024, softplus (theta x0 x1 (row i r) (row j c) * half)
/-- Tile (i, j)'s share of the second sum. -/
def tileKept (x0 x1 : Codes) (x3 x4 : Labels) (i j : Fin 8) : EReal :=
  ∑ r : Fin 1024, ∑ c : Fin 1024, kept (overlap x3 x4 (row i r) (row j c)) (theta x0 x1 (row i r) (row j c))

/-- What both programs do with the two sums `s11`, `s12` (rank-0 arrays) and the three code matrices: the quantization
    and balance terms and the final combination, as the one chain of host operations they share. Never opened. -/
def tail (h01 : (⟨2, ![8192, 16]⟩ : Shape).ReducesTo [0, 1] ⟨0, ![]⟩) (h1 : (⟨2, ![8192, 16]⟩ : Shape).ReducesTo [1] ⟨1, ![8192]⟩)
    (h0 : (⟨1, ![8192]⟩ : Shape).ReducesTo [0] ⟨0, ![]⟩) (hS : 0 < (⟨0, ![]⟩ : Shape).numel)
    (s11 s12 : (⟨0, ![]⟩ : Shape).Idx → EReal) (x0 x1 x2 : Codes) : (⟨0, ![]⟩ : Shape).Idx → EReal :=
  addf (F := Ideal) (φ := .f32)
    (addf (F := Ideal) (φ := .f32) (subf (F := Ideal) (φ := .f32) s11 s12)
      (mulf (F := Ideal) (φ := .f32) (constant (F := Ideal) ⟨0, ![]⟩ .f32 0x3F000000#32)
        (Host.reduceAdd (F := Ideal) (φ := .f32)
          (addf (F := Ideal) (φ := .f32) (mulf (F := Ideal) (φ := .f32) (subf (F := Ideal) (φ := .f32) x2 x0) (subf (F := Ideal) (φ := .f32) x2 x0))
            (mulf (F := Ideal) (φ := .f32) (subf (F := Ideal) (φ := .f32) x2 x1) (subf (F := Ideal) (φ := .f32) x2 x1)))
          (constant (F := Ideal) ⟨0, ![]⟩ .f32 0x00000000#32) h01 hS)))
    (mulf (F := Ideal) (φ := .f32) (constant (F := Ideal) ⟨0, ![]⟩ .f32 0x3F000000#32)
      (addf (F := Ideal) (φ := .f32)
        (Host.reduceAdd (F := Ideal) (φ := .f32)
          (mulf (F := Ideal) (φ := .f32)
            (Host.reduceAdd (F := Ideal) (φ := .f32) x0 (constant (F := Ideal) ⟨0, ![]⟩ .f32 0x00000000#32) h1 hS)
            (Host.reduceAdd (F := Ideal) (φ := .f32) x0 (constant (F := Ideal) ⟨0, ![]⟩ .f32 0x00000000#32) h1 hS))
          (constant (F := Ideal) ⟨0, ![]⟩ .f32 0x00000000#32) h0 hS)
        (Host.reduceAdd (F := Ideal) (φ := .f32)
          (mulf (F := Ideal) (φ := .f32)
            (Host.reduceAdd (F := Ideal) (φ := .f32) x1 (constant (F := Ideal) ⟨0, ![]⟩ .f32 0x00000000#32) h1 hS)
            (Host.reduceAdd (F := Ideal) (φ := .f32) x1 (constant (F := Ideal) ⟨0, ![]⟩ .f32 0x00000000#32) h1 hS))
          (constant (F := Ideal) ⟨0, ![]⟩ .f32 0x00000000#32) h0 hS)))

end Cert.PairwiseLoss

end
-- ==== Proof.ScalarForms.lean ====
/-
  The four places where the two programs SPELL one scalar function differently, over the extended reals.

  softplus arrives in both programs as jnp's log-add-exp against 0, guarded by the test `d ≠ d` (true of a NaN only): the
  kernel prints the test as an ordered comparison and the negation as `0 − |d|`, the reference as an unordered one and as
  `−|d|`. Over the extended reals nothing differs from itself, so either test is false and the guarded branch is never
  taken, and `0 − x = −x`; both are `softplus`.

  The kept value arrives in the kernel as a product with the 0/1 word of the comparison `overlap > 0` and in the reference
  as a selection between θ and 0 on the same comparison: `θ · 1 = θ` and `θ · 0 = 0` hold for every extended real θ,
  infinite or not, so both are `kept`.
-/
import proofs.«104550_j39221641347692_2_alg».proof.Proof.Terms

noncomputable section

namespace Cert.PairwiseLoss

open Idealize.ShloMosaic

/-- Nothing differs from itself: the ordered "not equal" of `d` with `d` is the bit 0. -/
theorem cmp_one_self (d : EReal) : Ideal.cmp .one d d = 0#1 := by
  simp [Ideal.cmp]

/-- And so is the unordered one. -/
theorem cmp_une_self (d : EReal) : Ideal.cmp .une d d = 0#1 := by
  simp [Ideal.cmp]

/-- The kernel's spelling of softplus: the guard as `cmpf one`, the negation as `0 − |d|`. -/
theorem softplus_kernel_form (y : EReal) :
    Scalar.select (Ideal.cmp .one (y - 0) (y - 0)) (y + 0) (max y 0 + Ideal.log1p (Ideal.exp (0 - max (y - 0) (-(y - 0)))))
      = softplus y := by
  rw [cmp_one_self, ValueIdx.select_zero, sub_zero, zero_sub]
  rfl

/-- The reference's spelling: the guard as `compare NE`, the negation as `−|d|`. -/
theorem softplus_host_form (y : EReal) :
    Scalar.select (Ideal.cmp .une (y - 0) (y - 0)) (y + 0) (max y 0 + Ideal.log1p (Ideal.exp (-(max (y - 0) (-(y - 0))))))
      = softplus y := by
  rw [cmp_une_self, ValueIdx.select_zero, sub_zero]
  rfl

/-- The comparison `s > 0` as a bit. -/
theorem cmp_ogt_zero (s : EReal) : Ideal.cmp .ogt s 0 = if 0 < s then 1#1 else 0#1 := by
  unfold Ideal.cmp
  by_cases h : (0 : EReal) < s <;> simp [h]

/-- The kernel's spelling of the kept value: θ times the comparison's bit, widened to a word and read as a number. -/
theorem kept_kernel_form (s θ : EReal) :
    θ * ((((Ideal.cmp .ogt s 0).setWidth 32).toInt : ℝ) : EReal) = kept s θ := by
  rw [cmp_ogt_zero]
  unfold kept
  by_cases h : (0 : EReal) < s
  · rw [if_pos h, if_pos h]
    have e : ((1#1 : BitVec 1).setWidth 32).toInt = 1 := by decide
    rw [e]; simp
  · rw [if_neg h, if_neg h]
    have e : ((0#1 : BitVec 1).setWidth 32).toInt = 0 := by decide
    rw [e]; simp

/-- The reference's spelling: a selection on the same comparison. -/
theorem kept_host_form (s θ : EReal) : Scalar.select (Ideal.cmp .ogt s 0) θ 0 = kept s θ := by
  rw [cmp_ogt_zero]
  unfold kept
  by_cases h : (0 : EReal) < s
  · rw [if_pos h, if_pos h, ValueIdx.select_one]
  · rw [if_neg h, if_neg h, ValueIdx.select_zero]

end Cert.PairwiseLoss

end
-- ==== Proof.ReferenceValue.lean ====
/-
  The reference program's result, read as the vocabulary's sums.

  The reference forms θ = F · Gᵀ as one 8192 × 8192 array, applies softplus to θ/2 elementwise and adds every entry up
  from 0; it forms the label overlaps I · Tᵀ the same way, keeps θ where the overlap is positive (0 elsewhere) and adds
  every entry up from 0. Read at the pair (a, b), the first array's entry is softplus(θ(a,b) · ½) and the second's is
  kept(overlap(a,b), θ(a,b)); a sum over all rank-2 indices is the double sum over the two coordinates. What the program
  does with the two totals afterwards is the shared chain of operations `tail`, taken as a whole.
-/
import proofs.«104550_j39221641347692_2_alg».proof.Proof.ReferenceRead
import proofs.«104550_j39221641347692_2_alg».proof.Proof.Terms
import proofs.«104550_j39221641347692_2_alg».proof.Proof.ScalarForms

noncomputable section

namespace Cert.ReferenceIdeal.RefValue

open Cert.ReferenceIdeal Cert.ReferenceIdeal.Gen Cert.PairwiseLoss Idealize.ShloMosaic Idealize.ShloMosaic.ValueIdx Idealize.ShloMosaic.TcCoe Idealize.SL.Sem

/-- The entry (a, b) of F · Gᵀ is θ(a, b): the contraction runs over the 16 code coordinates, and the transposed
    right operand read at (k, b) is G at (b, k). -/
theorem theta_read (x0 x1 : Codes) (a b : Fin 8192) :
    ReadP.val_main_v1 (F := Ideal) x0 x1 (ix2 a b) = theta x0 x1 a b := by
  rw [ReadP.val_main_v1_apply]
  unfold theta
  refine Finset.sum_congr rfl fun k _ => ?_
  rw [ReadP.val_main_v0_apply]
  have el : ReadP.lidx_main_v1 (ix2 a b) k = ix2 a k :=
    funext fun d => Fin.ext (by match d with | ⟨0, _⟩ => rfl | ⟨1, _⟩ => rfl)
  have er : ReadP.idx_main_v0 (ReadP.ridx_main_v1 (ix2 a b) k) = ix2 b k :=
    funext fun d => Fin.ext (by match d with | ⟨0, _⟩ => rfl | ⟨1, _⟩ => rfl)
  exact congrArg₂ (· * ·) (congrArg x0 el) (congrArg x1 er)

/-- The entry (a, b) of the softplus array is softplus(θ(a,b) · ½). -/
theorem softplus_read (x0 x1 : Codes) (a b : Fin 8192) :
    ReadP.val_main_v4 (F := Ideal) x0 x1 (ix2 a b) = softplus (theta x0 x1 a b * half) := by
  have hh : Ideal.ofBits .f32 0x3F000000#32 = half := rfl
  simp only [ReadP.val_main_v4_apply, ReadP.val_main_call0_v4_apply, ReadP.val_main_call0_v6_apply,
    ReadP.val_main_call0_v11_apply, ReadP.val_main_call0_v10_apply, ReadP.val_main_call0_v9_apply,
    ReadP.val_main_call0_v8_apply, ReadP.val_main_call0_v7_apply, ReadP.val_main_call0_v5_apply,
    ReadP.val_main_call0_v3_apply, ReadP.val_main_call0_v2_apply, ReadP.val_main_call0_v1_apply,
    ReadP.val_main_call0_v0_apply, ReadP.val_main_call0_cst_apply, ReadP.val_main_v3_apply, ReadP.val_main_v2_apply,
    ReadP.val_main_cst_apply, theta_read,
    Ideal.ofBits_def, Ideal.ofBits_zero_f32, hh, Ideal.addf_def, Ideal.subf_def, Ideal.mulf_def, Ideal.maximumf_def,
    Ideal.hostUnary_exp_def, Ideal.hostUnary_log1p_def, Ideal.hostNegf_def, Ideal.hostAbsf_def, Ideal.negf_def,
    Ideal.absf_def, Ideal.cmpf_def]
  exact softplus_host_form _

/-- The first total: every entry of the softplus array, added to 0. -/
theorem sum_softplus (x0 x1 : Codes) (i : S_.Idx) :
    ReadP.val_main_v5 (F := Ideal) x0 x1 i = sumSoftplus x0 x1 := by
  rw [ReadP.val_main_v5_apply, ReadP.val_main_cst_0_apply, Ideal.ofBits_def, Ideal.ofBits_zero_f32, zero_add, sum_idx2]
  unfold sumSoftplus
  exact Finset.sum_congr rfl fun a _ => Finset.sum_congr rfl fun b _ => softplus_read x0 x1 a b

/-- The entry (a, b) of I · Tᵀ, both label arrays read as numbers, is overlap(a, b): the contraction runs over the 81
    classes, and the transposed right operand read at (l, b) is T at (b, l). -/
theorem overlap_read (x3 x4 : PairwiseLoss.Labels) (a b : Fin 8192) :
    ReadP.val_main_v9 (F := Ideal) x3 x4 (ix2 a b) = overlap x3 x4 a b := by
  rw [ReadP.val_main_v9_apply]
  unfold overlap
  refine Finset.sum_congr rfl fun k _ => ?_
  rw [ReadP.val_main_v6_apply, ReadP.val_main_v8_apply, ReadP.val_main_v7_apply]
  have el : ReadP.lidx_main_v9 (ix2 a b) k = ix2 a k :=
    funext fun d => Fin.ext (by match d with | ⟨0, _⟩ => rfl | ⟨1, _⟩ => rfl)
  have er : ReadP.idx_main_v8 (ReadP.ridx_main_v9 (ix2 a b) k) = ix2 b k :=
    funext fun d => Fin.ext (by match d with | ⟨0, _⟩ => rfl | ⟨1, _⟩ => rfl)
  rw [el, er]
  rfl

/-- The entry (a, b) of the kept array is θ(a,b) where overlap(a,b) > 0 and 0 elsewhere. -/
theorem kept_read (x0 x1 : Codes) (x3 x4 : PairwiseLoss.Labels) (a b : Fin 8192) :
    ReadP.val_main_v12 (F := Ideal) x0 x1 x3 x4 (ix2 a b) = kept (overlap x3 x4 a b) (theta x0 x1 a b) := by
  simp only [ReadP.val_main_v12_apply, ReadP.val_main_v11_apply, ReadP.val_main_v10_apply, ReadP.val_main_cst_1_apply,
    ReadP.val_main_call1_v0_apply, ReadP.val_main_cst_2_apply, theta_read, overlap_read,
    Ideal.ofBits_def, Ideal.ofBits_zero_f32, Ideal.cmpf_def]
  exact kept_host_form _ _

/-- The second total: every entry of the kept array, added to 0. -/
theorem sum_kept (x0 x1 : Codes) (x3 x4 : PairwiseLoss.Labels) (i : S_.Idx) :
    ReadP.val_main_v13 (F := Ideal) x0 x1 x3 x4 i = sumKept x0 x1 x3 x4 := by
  rw [ReadP.val_main_v13_apply, ReadP.val_main_cst_3_apply, Ideal.ofBits_def, Ideal.ofBits_zero_f32, zero_add, sum_idx2]
  unfold sumKept
  exact Finset.sum_congr rfl fun a _ => Finset.sum_congr rfl fun b _ => kept_read x0 x1 x3 x4 a b

/-- The last stage is the shared chain applied to the two totals: from the difference of the totals on, the program's
    operations are, one for one and in the same order, those of `tail`. -/
theorem stage_eq (x0 x1 x2 : Codes) (x3 x4 : PairwiseLoss.Labels) :
    ReadP.val_main_v31 (F := Ideal) x0 x1 x2 x3 x4
      = tail reducesTo_S8192x16_S_d0_1 reducesTo_S8192x16_S8192_d1 reducesTo_S8192_S_d0 h_S_
          (fun _ => sumSoftplus x0 x1) (fun _ => sumKept x0 x1 x3 x4) x0 x1 x2 := by
  have e5 : ReadP.val_main_v5 (F := Ideal) x0 x1 = fun _ => sumSoftplus x0 x1 :=
    funext fun i => sum_softplus x0 x1 i
  have e13 : ReadP.val_main_v13 (F := Ideal) x0 x1 x3 x4 = fun _ => sumKept x0 x1 x3 x4 :=
    funext fun i => sum_kept x0 x1 x3 x4 i
  have key : ReadP.val_main_v31 (F := Ideal) x0 x1 x2 x3 x4
      = tail reducesTo_S8192x16_S_d0_1 reducesTo_S8192x16_S8192_d1 reducesTo_S8192_S_d0 h_S_
          (ReadP.val_main_v5 (F := Ideal) x0 x1) (ReadP.val_main_v13 (F := Ideal) x0 x1 x3 x4) x0 x1 x2 := rfl
  rw [key, e5, e13]

/-- The reference program's result is the shared chain applied to the two sums over all pairs. -/
theorem result_eq (m : (ℓ : Loc nD τ sig) → Buf (Elt Ideal) ℓ) (c : Dev nD) :
    ValueP.res_main_v31 (F := Ideal) m c
      = tail reducesTo_S8192x16_S_d0_1 reducesTo_S8192x16_S8192_d1 reducesTo_S8192_S_d0 h_S_
          (fun _ => sumSoftplus (m ((c.tc : Thread nD τ).loc main_arg0)) (m ((c.tc : Thread nD τ).loc main_arg1)))
          (fun _ => sumKept (m ((c.tc : Thread nD τ).loc main_arg0)) (m ((c.tc : Thread nD τ).loc main_arg1)) (m ((c.tc : Thread nD τ).loc main_arg3)) (m ((c.tc : Thread nD τ).loc main_arg4)))
          (m ((c.tc : Thread nD τ).loc main_arg0)) (m ((c.tc : Thread nD τ).loc main_arg1)) (m ((c.tc : Thread nD τ).loc main_arg2)) :=
  (ReadP.val_main_v31_eq m c).trans (stage_eq _ _ _ _ _)

end Cert.ReferenceIdeal.RefValue

end
-- ==== Proof.KernelTail.lean ====
/-
  The kernel program's result from its two result arrays: the host operations after the region.

  After the region @main sums each [8,1,1] result array to a scalar, subtracts, and adds the quantization and balance terms
  of the three code matrices — the chain of host operations the reference ends with too, kept as the one function `tail`.
  The frame run states @main's result as those operations folded over the memory the region leaves: the two result
  arrays at what the write-backs left, the staged inputs F and G at their entry contents (no host operation before the
  region writes them), and B, which no window stages, as launched.
-/
import proofs.«104550_j39221641347692_2_alg».proof.Proof.Gen.KernelIdeal.Frame
import proofs.«104550_j39221641347692_2_alg».proof.Proof.Terms
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.PairwiseLoss

variable (m : (ℓ : Loc nD τ sig) → Buf (Elt Ideal) ℓ)

/-- A result array, as the tail finds it, is what the write-backs left. -/
theorem reads_first (c : Dev nD) :
    Pipeline.withArrays (cfgs 0).spec c (V0 m c) (fun w => (dats m 0 c).arrAt w (cfgs 0).N) (Proc.devRef .tc main_v2_0) = (dats m 0 c).arrAt 4 cfg0.N :=
  Pipeline.withArrays_arr spec0 launch0.win.arr_inj c _ _ 4
theorem reads_second (c : Dev nD) :
    Pipeline.withArrays (cfgs 0).spec c (V0 m c) (fun w => (dats m 0 c).arrAt w (cfgs 0).N) (Proc.devRef .tc main_v2_1) = (dats m 0 c).arrAt 5 cfg0.N :=
  Pipeline.withArrays_arr spec0 launch0.win.arr_inj c _ _ 5
/-- A staged input, as the tail finds it, is the launch contents. -/
theorem reads_F (c : Dev nD) :
    Pipeline.withArrays (cfgs 0).spec c (V0 m c) (fun w => (dats m 0 c).arrAt w (cfgs 0).N) (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))
theorem reads_G (c : Dev nD) :
    Pipeline.withArrays (cfgs 0).spec c (V0 m c) (fun w => (dats m 0 c).arrAt w (cfgs 0).N) (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))
/-- B is no window's array: the tail finds it as launched. -/
theorem reads_B (c : Dev nD) :
    Pipeline.withArrays (cfgs 0).spec c (V0 m c) (fun w => (dats m 0 c).arrAt w (cfgs 0).N) (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)

set_option maxHeartbeats 2000000 in
/-- @main's result: the shared tail of the two result arrays' host sums and the three code matrices. -/
theorem result_eq (c : Dev nD) :
    Pipeline.afterTail₀ cfgs (dats m) 0 (V0 m) [hostOps1] c main_v22
      = tail reducesTo_S8192x16_S_d0_1 reducesTo_S8192x16_S8192_d1 reducesTo_S8192_S_d0 h_S_
          (Host.reduceAdd (F := Ideal) ((dats m 0 c).arrAt 4 cfg0.N) (constant (F := Ideal) S_ .f32 0x00000000#32) reducesTo_S8x1x1_S_d0_1_2 h_S_)
          (Host.reduceAdd (F := Ideal) ((dats m 0 c).arrAt 5 cfg0.N) (constant (F := Ideal) S_ .f32 0x00000000#32) reducesTo_S8x1x1_S_d0_1_2 h_S_)
          (m ((c : Thread nD τ).loc main_arg0)) (m ((c : Thread nD τ).loc main_arg1)) (m ((c : Thread nD τ).loc main_arg2)) := by
  unfold Pipeline.afterTail₀
  show StableHlo.after hostOps1 _ (Proc.devRef .tc main_v22) = _
  after_results_simp
  rw [reads_first m c, reads_second m c, reads_F m c, reads_G m c, reads_B m c]
  rfl

end Cert.KernelIdeal.Tail

end
-- ==== Proof.KernelArrays.lean ====
/-
  From what the accumulators hold point by point to what the two result arrays [8,1,1] hold after the run.

  Each output window's block index is (row block, 0, 0) and never moves within a row block, so its staging buffer is
  written back once per row block, after the last column step — at the points 8·i + 7 — into entry (i, 0, 0). If at each
  such point the accumulator holds `g i`, the array ends holding `g` of its first coordinate at every index: the eight
  write-backs cover the eight entries. At any float instance.
-/
import proofs.«104550_j39221641347692_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable {F : FTy → Type} [FloatOps F]
variable (m : (ℓ : Loc nD τ sig) → Buf (Elt F) ℓ)

/-- Output window 4's block index at a point: (row block, 0, 0) — decided once over the grid. -/
theorem index4 : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-- What a writing-back point writes to window 4's array: its one-element block, holding `g` of the point's row block. -/
theorem written4 (c : Dev nD) (g : Fin 8 → Elt F .f32)
    (hg : ∀ t : Fin cfg0.N, t.val % 8 = 7 → ∀ q : Fin 8, q.val = t.val / 8 → (outsAt0 m c t.val t.isLt).1 (ix3 0 0 0) = g q)
    (t : Fin cfg0.N) (hf : (cfg0.win 4).flush t = true) :
    (dats m 0 c).flushed 4 t = ((cfg0.win 4).blk t).view.read (Elt F) (fun idx : S8x1x1.Idx => g (idx 0)) := by
  have h7 : t.val % 8 = 7 := (flush0_4 t).mp hf
  have hN : t.val < 64 := lt_of_lt_of_eq t.isLt (show cfg0.N = 64 from N_0)
  obtain ⟨e0, e1, e2⟩ := index4 t
  show (cfg0.win 4).cut (grid0.coords t) ((dats m 0 c).after 4 t) = _
  rw [after0_4]
  funext j
  have hj : j = ix3 0 0 0 := funext fun a => by
    match a with
    | ⟨0, _⟩ => exact Fin.ext (by have h : (j 0 : Nat) < 1 := (j 0).isLt; show (j 0 : Nat) = 0; omega)
    | ⟨1, _⟩ => exact Fin.ext (by have h : (j 1 : Nat) < 1 := (j 1).isLt; show (j 1 : Nat) = 0; omega)
    | ⟨2, _⟩ => exact Fin.ext (by have h : (j 2 : Nat) < 1 := (j 2).isLt; show (j 2 : Nat) = 0; omega)
  subst hj
  show (outsAt0 m c t.val t.isLt).1 (ix3 0 0 0) = g ((((cfg0.win 4).blk t).view.emb (ix3 0 0 0)) 0)
  refine (hg t h7 _ ?_)
  show win0_4.index t (0 : Fin 3) * 1 + 1 * 0 = t.val / 8
  omega

/-- An index of window 4's array is in point `t`'s block iff each coordinate is in the block's range on its axis. -/
theorem mem_block4 (t : Fin cfg0.N) (i : S8x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v2_0).slice (win0_4.rect t)).set ↔ _
  rw [View.set_slice_whole, Rect.mem_set_unit]
  exact Iff.rfl

/-- So window 4's array ends holding `g` of the row block at every index: entry (i, 0, 0) is written back by the last
    column step of row block i, the point 8·i + 7. -/
theorem final4 (c : Dev nD) (g : Fin 8 → Elt F .f32)
    (hg : ∀ t : Fin cfg0.N, t.val % 8 = 7 → ∀ q : Fin 8, q.val = t.val / 8 → (outsAt0 m c t.val t.isLt).1 (ix3 0 0 0) = g q) :
    (dats m 0 c).arrAt 4 cfg0.N = fun idx : S8x1x1.Idx => g (idx 0) :=
  (dats m 0 c).arrAt_eq_of_cover 4 (fun idx : S8x1x1.Idx => g (idx 0)) (fun t hf => written4 m c g hg t hf) fun i => by
    have h0 : (i 0 : Nat) < 8 := (i 0).isLt
    have h1 : (i 1 : Nat) < 1 := (i 1).isLt
    have h2 : (i 2 : Nat) < 1 := (i 2).isLt
    refine ⟨⟨8 * (i 0 : Nat) + 7, lt_of_lt_of_eq (by omega) (N_0).symm⟩, (flush0_4 _).mpr (by show (8 * (i 0 : Nat) + 7) % 8 = 7; omega), ?_⟩
    rw [mem_block4]
    obtain ⟨e0, e1, e2⟩ := index4 ⟨8 * (i 0 : Nat) + 7, lt_of_lt_of_eq (by omega) (N_0).symm⟩
    intro a
    match a with
    | ⟨0, _⟩ => show win0_4.index _ (0 : Fin 3) * 1 ≤ (i 0 : Nat) ∧ (i 0 : Nat) < win0_4.index _ (0 : Fin 3) * 1 + 1
                rw [e0]; show (8 * (i 0 : Nat) + 7) / 8 * 1 ≤ (i 0 : Nat) ∧ (i 0 : Nat) < (8 * (i 0 : Nat) + 7) / 8 * 1 + 1; omega
    | ⟨1, _⟩ => show win0_4.index _ (1 : Fin 3) * 1 ≤ (i 1 : Nat) ∧ (i 1 : Nat) < win0_4.index _ (1 : Fin 3) * 1 + 1
                rw [e1]; omega
    | ⟨2, _⟩ => show win0_4.index _ (2 : Fin 3) * 1 ≤ (i 2 : Nat) ∧ (i 2 : Nat) < win0_4.index _ (2 : Fin 3) * 1 + 1
                rw [e2]; omega

/-- Output window 5's block index at a point: (row block, 0, 0) — decided once over the grid. -/
theorem index5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- What a writing-back point writes to window 5's array: its one-element block, holding `g` of the point's row block. -/
theorem written5 (c : Dev nD) (g : Fin 8 → Elt F .f32)
    (hg : ∀ t : Fin cfg0.N, t.val % 8 = 7 → ∀ q : Fin 8, q.val = t.val / 8 → (outsAt0 m c t.val t.isLt).2 (ix3 0 0 0) = g q)
    (t : Fin cfg0.N) (hf : (cfg0.win 5).flush t = true) :
    (dats m 0 c).flushed 5 t = ((cfg0.win 5).blk t).view.read (Elt F) (fun idx : S8x1x1.Idx => g (idx 0)) := by
  have h7 : t.val % 8 = 7 := (flush0_5 t).mp hf
  have hN : t.val < 64 := lt_of_lt_of_eq t.isLt (show cfg0.N = 64 from N_0)
  obtain ⟨e0, e1, e2⟩ := index5 t
  show (cfg0.win 5).cut (grid0.coords t) ((dats m 0 c).after 5 t) = _
  rw [after0_5]
  funext j
  have hj : j = ix3 0 0 0 := funext fun a => by
    match a with
    | ⟨0, _⟩ => exact Fin.ext (by have h : (j 0 : Nat) < 1 := (j 0).isLt; show (j 0 : Nat) = 0; omega)
    | ⟨1, _⟩ => exact Fin.ext (by have h : (j 1 : Nat) < 1 := (j 1).isLt; show (j 1 : Nat) = 0; omega)
    | ⟨2, _⟩ => exact Fin.ext (by have h : (j 2 : Nat) < 1 := (j 2).isLt; show (j 2 : Nat) = 0; omega)
  subst hj
  show (outsAt0 m c t.val t.isLt).2 (ix3 0 0 0) = g ((((cfg0.win 5).blk t).view.emb (ix3 0 0 0)) 0)
  refine (hg t h7 _ ?_)
  show win0_5.index t (0 : Fin 3) * 1 + 1 * 0 = t.val / 8
  omega

/-- An index of window 5's array is in point `t`'s block iff each coordinate is in the block's range on its axis. -/
theorem mem_block5 (t : Fin cfg0.N) (i : S8x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v2_1).slice (win0_5.rect t)).set ↔ _
  rw [View.set_slice_whole, Rect.mem_set_unit]
  exact Iff.rfl

/-- So window 5's array ends holding `g` of the row block at every index: entry (i, 0, 0) is written back by the last
    column step of row block i, the point 8·i + 7. -/
theorem final5 (c : Dev nD) (g : Fin 8 → Elt F .f32)
    (hg : ∀ t : Fin cfg0.N, t.val % 8 = 7 → ∀ q : Fin 8, q.val = t.val / 8 → (outsAt0 m c t.val t.isLt).2 (ix3 0 0 0) = g q) :
    (dats m 0 c).arrAt 5 cfg0.N = fun idx : S8x1x1.Idx => g (idx 0) :=
  (dats m 0 c).arrAt_eq_of_cover 5 (fun idx : S8x1x1.Idx => g (idx 0)) (fun t hf => written5 m c g hg t hf) fun i => by
    have h0 : (i 0 : Nat) < 8 := (i 0).isLt
    have h1 : (i 1 : Nat) < 1 := (i 1).isLt
    have h2 : (i 2 : Nat) < 1 := (i 2).isLt
    refine ⟨⟨8 * (i 0 : Nat) + 7, lt_of_lt_of_eq (by omega) (N_0).symm⟩, (flush0_5 _).mpr (by show (8 * (i 0 : Nat) + 7) % 8 = 7; omega), ?_⟩
    rw [mem_block5]
    obtain ⟨e0, e1, e2⟩ := index5 ⟨8 * (i 0 : Nat) + 7, lt_of_lt_of_eq (by omega) (N_0).symm⟩
    intro a
    match a with
    | ⟨0, _⟩ => show win0_5.index _ (0 : Fin 3) * 1 ≤ (i 0 : Nat) ∧ (i 0 : Nat) < win0_5.index _ (0 : Fin 3) * 1 + 1
                rw [e0]; show (8 * (i 0 : Nat) + 7) / 8 * 1 ≤ (i 0 : Nat) ∧ (i 0 : Nat) < (8 * (i 0 : Nat) + 7) / 8 * 1 + 1; omega
    | ⟨1, _⟩ => show win0_5.index _ (1 : Fin 3) * 1 ≤ (i 1 : Nat) ∧ (i 1 : Nat) < win0_5.index _ (1 : Fin 3) * 1 + 1
                rw [e1]; omega
    | ⟨2, _⟩ => show win0_5.index _ (2 : Fin 3) * 1 ≤ (i 2 : Nat) ∧ (i 2 : Nat) < win0_5.index _ (2 : Fin 3) * 1 + 1
                rw [e2]; omega

end Cert.KernelIdeal.Arrays

end
-- ==== Proof.Regroup.lean ====
/-
  Regrouping the sum over all pairs by tiles, with no program in sight.

  The 8192 × 8192 pairs (a, b) are the disjoint union of the 8 × 8 tiles of 1024 × 1024 pairs (row i r, row j c), because every
  a < 8192 is 1024·i + r for exactly one i < 8 and r < 1024 (quotient and remainder by 1024). So a sum over all pairs is the sum
  over the tiles of the sum inside each tile. This holds in any additive commutative monoid; the extended reals are one, and no
  finiteness of the summands is used.
-/
import proofs.«104550_j39221641347692_2_alg».proof.Proof.Terms
import Mathlib.Algebra.BigOperators.Fin
import Mathlib.Algebra.BigOperators.Group.Finset.Basic
import Mathlib.Data.Fintype.BigOperators

noncomputable section

namespace Cert.PairwiseLoss

open Idealize.ShloMosaic Idealize.ShloMosaic.ValueIdx

/-- Division with remainder by 1024: a row block i and a row r inside it name exactly one global row 1024·i + r. -/
def rowEquiv : Fin 8 × Fin 1024 ≃ Fin 8192 where
  toFun p := row p.1 p.2
  invFun a := (⟨a.val / 1024, by have := a.isLt; omega⟩, ⟨a.val % 1024, by omega⟩)
  left_inv p := by
    obtain ⟨i, r⟩ := p
    have hi := i.isLt
    have hr := r.isLt
    refine Prod.ext (Fin.ext ?_) (Fin.ext ?_)
    · show (1024 * i.val + r.val) / 1024 = i.val
      omega
    · show (1024 * i.val + r.val) % 1024 = r.val
      omega
  right_inv a := by
    refine Fin.ext ?_
    show 1024 * (a.val / 1024) + a.val % 1024 = a.val
    omega

/-- A sum over one global row index is the double sum over the row block and the row inside it. -/
theorem sum_rows {M : Type*} [AddCommMonoid M] (g : Fin 8192 → M) :
    ∑ a : Fin 8192, g a = ∑ i : Fin 8, ∑ r : Fin 1024, g (row i r) := by
  rw [← Equiv.sum_comp rowEquiv g, Fintype.sum_prod_type]
  rfl

/-- The sum over all pairs is the sum over the 8 × 8 tiles of the sum inside each tile: split both indices by blocks, then
    exchange the inner row sum with the outer column-block sum. -/
theorem sum_tiles {M : Type*} [AddCommMonoid M] (f : Fin 8192 → Fin 8192 → M) :
    ∑ i : Fin 8, ∑ j : Fin 8, ∑ r : Fin 1024, ∑ c : Fin 1024, f (row i r) (row j c) = ∑ a : Fin 8192, ∑ b : Fin 8192, f a b := by
  refine Eq.symm ((sum_rows fun a => ∑ b : Fin 8192, f a b).trans ?_)
  refine Finset.sum_congr rfl fun i _ => ?_
  refine Eq.trans ?_ Finset.sum_comm
  refine Finset.sum_congr rfl fun r _ => ?_
  exact sum_rows fun b => f (row i r) b

/-- An index of the shape [8, 1, 1] is its first coordinate: the other two range over one value each. -/
def idxEquiv811 : (⟨3, ![8, 1, 1]⟩ : Shape).Idx ≃ Fin 8 where
  toFun idx := idx 0
  invFun a := ix3 a (0 : Fin 1) (0 : Fin 1)
  left_inv idx := by
    funext d
    match d with
    | ⟨0, _⟩ => rfl
    | ⟨1, _⟩ => exact Subsingleton.elim (α := Fin 1) _ _
    | ⟨2, _⟩ => exact Subsingleton.elim (α := Fin 1) _ _
  right_inv _ := rfl

/-- A sum over the shape [8, 1, 1] of something that reads only the first coordinate is the sum over that coordinate. -/
theorem sum_idx811 {M : Type*} [AddCommMonoid M] (g : Fin 8 → M) :
    ∑ idx : (⟨3, ![8, 1, 1]⟩ : Shape).Idx, g (idx 0) = ∑ i : Fin 8, g i :=
  Equiv.sum_comp idxEquiv811 g

/-- The row-block partial sums of the first sum, each started from zero, add up to the sum over all pairs. -/
theorem total_softplus (x0 x1 : Codes) :
    ∑ idx : (⟨3, ![8, 1, 1]⟩ : Shape).Idx, ((0 : EReal) + ∑ j : Fin 8, tileSoftplus x0 x1 (idx 0) j) = sumSoftplus x0 x1 := by
  refine (sum_idx811 fun i => (0 : EReal) + ∑ j : Fin 8, tileSoftplus x0 x1 i j).trans ?_
  simp only [zero_add]
  exact sum_tiles fun a b => softplus (theta x0 x1 a b * half)

/-- The row-block partial sums of the second sum, each started from zero, add up to the sum over all pairs. -/
theorem total_kept (x0 x1 : Codes) (x3 x4 : Labels) :
    ∑ idx : (⟨3, ![8, 1, 1]⟩ : Shape).Idx, ((0 : EReal) + ∑ j : Fin 8, tileKept x0 x1 x3 x4 (idx 0) j) = sumKept x0 x1 x3 x4 := by
  refine (sum_idx811 fun i => (0 : EReal) + ∑ j : Fin 8, tileKept x0 x1 x3 x4 i j).trans ?_
  simp only [zero_add]
  exact sum_tiles fun a b => kept (overlap x3 x4 a b) (theta x0 x1 a b)

end Cert.PairwiseLoss

end
-- ==== Proof.CaseValues.lean ====
/-
  What each control case of the kernel body leaves in the two accumulators, as the body's own arithmetic.

  The body keeps two [1,1,1] accumulators, one per output window. At a grid point whose column step is the first of its
  row block (case A) it first stores zero into both, then adds the tile's totals to what it reads back; at every other
  point (case B) it adds the tile's totals to what the point before left. The generated frame run records, per case and
  per accumulator, the list of stores it found; read back, the last store covers the whole one-element block, so the
  accumulator holds that store's value: the accumulate payload over the tile payloads of the point's input blocks, over
  zero in case A and over the previous contents in case B. At any float instance.
-/
import proofs.«104550_j39221641347692_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Case B, first accumulator: the previous contents plus the tile's softplus total. -/
theorem first_B (c : Dev nD) (i : grid0.Coords) (arg2 : Memref sig .tc .vmem S1024x16 .f32) (harg2 : arg2.IsWhole) (arg3 : Memref sig .tc .vmem S1024x16 .f32) (harg3 : arg3.IsWhole) (arg4 : Memref sig .tc .vmem S1024x81 .bf16) (harg4 : arg4.IsWhole) (arg5 : Memref sig .tc .vmem S1024x81 .bf16) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (x0 : Vec F S1024x16 .f32) (x1 : Vec F S1024x16 .f32) (x2 : Vec F S1024x81 .bf16) (x3 : Vec F S1024x81 .bf16) (xo4 xo5 : Vec F S1x1x1 .f32) :
    out0_B_4 c i arg2 harg2 arg3 harg3 arg4 harg4 arg5 harg5 arg6 harg6 arg7 harg7 hc0 x0 x1 x2 x3 xo4 xo5 = k0_pay1 (k0_pay6 x0 x1) xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero hz3]
  simp only [View.readAt_eq_ld, harg2.read_unread, harg3.read_unread, harg6.read_unread,
    View.ld_unit_zero (S := S1x1x1) hz3, View.ld_unit_zero (S := S1024x16) hz2]

/-- Case B, second accumulator: the previous contents plus the tile's kept total. -/
theorem second_B (c : Dev nD) (i : grid0.Coords) (arg2 : Memref sig .tc .vmem S1024x16 .f32) (harg2 : arg2.IsWhole) (arg3 : Memref sig .tc .vmem S1024x16 .f32) (harg3 : arg3.IsWhole) (arg4 : Memref sig .tc .vmem S1024x81 .bf16) (harg4 : arg4.IsWhole) (arg5 : Memref sig .tc .vmem S1024x81 .bf16) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (x0 : Vec F S1024x16 .f32) (x1 : Vec F S1024x16 .f32) (x2 : Vec F S1024x81 .bf16) (x3 : Vec F S1024x81 .bf16) (xo4 xo5 : Vec F S1x1x1 .f32) :
    out0_B_5 c i arg2 harg2 arg3 harg3 arg4 harg4 arg5 harg5 arg6 harg6 arg7 harg7 hc0 x0 x1 x2 x3 xo4 xo5 = k0_pay2 (k0_pay5 x0 x1) (k0_pay7 x2 x3) xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz3]
  simp only [View.readAt_eq_ld, harg2.read_unread, harg3.read_unread, harg4.read_unread, harg5.read_unread, harg7.read_unread,
    View.ld_unit_zero (S := S1x1x1) hz3, View.ld_unit_zero (S := S1024x16) hz2, View.ld_unit_zero (S := S1024x81) hz2]

/-- Case A, first accumulator: zero plus the tile's softplus total. -/
theorem first_A (c : Dev nD) (i : grid0.Coords) (arg2 : Memref sig .tc .vmem S1024x16 .f32) (harg2 : arg2.IsWhole) (arg3 : Memref sig .tc .vmem S1024x16 .f32) (harg3 : arg3.IsWhole) (arg4 : Memref sig .tc .vmem S1024x81 .bf16) (harg4 : arg4.IsWhole) (arg5 : Memref sig .tc .vmem S1024x81 .bf16) (harg5 : arg5.IsWhole) (arg6 : Memref sig .tc .vmem S1x1x1 .f32) (harg6 : arg6.IsWhole) (arg7 : Memref sig .tc .vmem S1x1x1 .f32) (harg7 : arg7.IsWhole) (hc0 : cond0_0 i) (x0 : Vec F S1024x16 .f32) (x1 : Vec F S1024x16 .f32) (x2 : Vec F S1024x81 .bf16) (x3 : Vec F S1024x81 .bf16) :
    out0_A_4 c i arg2 harg2 arg3 harg3 arg4 harg4 arg5 harg5 arg6 harg6 arg7 harg7 hc0 x0 x1 x2 x3 = k0_pay1 (k0_pay6 x0 x1) k0_pay3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread,
    View.ld_unit_zero (S := S1x1x1) hz3, View.ld_unit_zero (S := S1024x16) hz2]

/-- Case A, second accumulator: zero plus the tile's kept total. -/
theorem second_A (c : Dev nD) (i : grid0.Coords) (arg2 : Memref sig .tc .vmem S1024x16 .f32) (harg2 : arg2.IsWhole) (arg3 : Memref sig .tc .vmem S1024x16 .f32) (harg3 : arg3.IsWhole) (arg4 : Memref sig .tc .vmem S1024x81 .bf16) (harg4 : arg4.IsWhole) (arg5 : Memref sig .tc .vmem S1024x81 .bf16) (harg5 : arg5.IsWhole) (arg6 : Memref sig .tc .vmem S1x1x1 .f32) (harg6 : arg6.IsWhole) (arg7 : Memref sig .tc .vmem S1x1x1 .f32) (harg7 : arg7.IsWhole) (hc0 : cond0_0 i) (x0 : Vec F S1024x16 .f32) (x1 : Vec F S1024x16 .f32) (x2 : Vec F S1024x81 .bf16) (x3 : Vec F S1024x81 .bf16) :
    out0_A_5 c i arg2 harg2 arg3 harg3 arg4 harg4 arg5 harg5 arg6 harg6 arg7 harg7 hc0 x0 x1 x2 x3 = k0_pay2 (k0_pay5 x0 x1) (k0_pay7 x2 x3) k0_pay4 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread,
    View.ld_unit_zero (S := S1x1x1) hz3, View.ld_unit_zero (S := S1024x16) hz2, View.ld_unit_zero (S := S1024x81) hz2]

end Cert.KernelIdeal.CaseValue

end
-- ==== Proof.Payloads.lean ====
/-
  The kernel body's arithmetic, read over the extended reals at coordinates.

  One column step of the kernel takes a 1024 × 16 block of each code matrix and a 1024 × 81 block of each label matrix,
  forms the 1024 × 1024 tile θ(r, c) = ⟨F_r, G_c⟩ of inner products and the tile of label overlaps ⟨I_r, T_c⟩, and adds to
  two one-element accumulators the tile's totals Σ_{r,c} softplus(θ(r,c) / 2) and Σ_{r,c} [overlap(r,c) > 0] · θ(r,c).
  Here each stored value is read at its one index as exactly that: the accumulator's old value plus a double sum over
  the tile's coordinates of a scalar function of the blocks' entries.

  The order of the reading: a matrix product at (r, c) is the sum over the contracted coordinate; softplus and the 0/1
  mask are pointwise; a sum along the lanes, then along the rows, of a tile is the double sum; the casts between
  [1024] and [1024, 1], and between the one-element shapes [1], [1, 1], [1, 1, 1], move no value.
-/
import proofs.«104550_j39221641347692_2_alg».proof.Proof.Gen.KernelIdeal.Skeleton
import proofs.«104550_j39221641347692_2_alg».proof.Proof.Terms
import proofs.«104550_j39221641347692_2_alg».proof.Proof.ScalarForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.PairwiseLoss Idealize.ShloMosaic Idealize.ShloMosaic.ValueIdx

/-! ## The two matrix products at (r, c) -/

/-- The code product's operand indices at an output index `i` and a contraction index `q`, coordinate by coordinate: the left
    operand is read at (i₀, q), the right at (q, i₁). -/
theorem codeDot_lhs0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide),
    dif_pos (show (0 : Fin S1024x16.rank) ∈ dot_S1024x16_S16x1024_S1024x1024_1_0_0_1_n_n.lhsNonContracting by decide)]
  rfl
theorem codeDot_lhs1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem codeDot_rhs0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem codeDot_rhs1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide),
    dif_pos (show (1 : Fin S16x1024.rank) ∈ dot_S1024x16_S16x1024_S1024x1024_1_0_0_1_n_n.rhsNonContracting by decide)]
  rfl

/-- A matrix times a transposed matrix into the zero accumulator, at (r, c): the sum over the contracted coordinate k of
    the left matrix at (r, k) times the untransposed right matrix at (c, k). -/
theorem codeDot_apply (x : FVec Ideal S1024x16 .bf16) (y : FVec Ideal S1024x16 .bf16) (h : S1024x16.Transposes [1, 0] S16x1024)
    (r c : Fin 1024) :
    matmul (F := Ideal) dot_S1024x16_S16x1024_S1024x1024_1_0_0_1_n_n none x (transpose S16x1024 [1, 0] y h) (constant (F := Ideal) S1024x1024 .f32 0x00000000#32) (ix2 r c)
      = ∑ k : Fin 16, x (ix2 r k) * y (ix2 c k) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 r c) ((contrEquiv1 dot_S1024x16_S16x1024_S1024x1024_1_0_0_1_n_n 16 rfl rfl).symm k) = ix2 r k :=
    funext fun a => Fin.ext (by
      match a with
      | ⟨0, _⟩ => exact codeDot_lhs0 _ _
      | ⟨1, _⟩ => exact (codeDot_lhs1 _ _).trans hk)
  rw [el]
  refine congrArg (fun z => x (ix2 r k) * z) ?_
  refine transpose_apply [1, 0] y h _ (ix2 c k) (fun b => ?_)
  match b with
  | ⟨0, _⟩ => exact ((codeDot_rhs0 (ix2 r c) _).trans hk).symm
  | ⟨1, _⟩ => exact (codeDot_rhs1 (ix2 r c) _).symm

/-- The label product's operand indices at an output index `i` and a contraction index `q`, coordinate by coordinate: the left
    operand is read at (i₀, q), the right at (q, i₁). -/
theorem labelDot_lhs0 (i : S1024x1024.Idx) (q : dot_S1024x81_S81x1024_S1024x1024_1_0_0_1_n_n.contr.Idx) :
    (dot_S1024x81_S81x1024_S1024x1024_1_0_0_1_n_n.lhsIdx i q 0).val = (i 0).val := by
  unfold DotDims.lhsIdx
  rw [dif_neg (show ¬(0 : Fin S1024x81.rank) ∈ dot_S1024x81_S81x1024_S1024x1024_1_0_0_1_n_n.lhsBatch by decide),
    dif_pos (show (0 : Fin S1024x81.rank) ∈ dot_S1024x81_S81x1024_S1024x1024_1_0_0_1_n_n.lhsNonContracting by decide)]
  rfl
theorem labelDot_lhs1 (i : S1024x1024.Idx) (q : dot_S1024x81_S81x1024_S1024x1024_1_0_0_1_n_n.contr.Idx) :
    (dot_S1024x81_S81x1024_S1024x1024_1_0_0_1_n_n.lhsIdx i q 1).val = (q ⟨0, by decide⟩).val :=
  dot_S1024x81_S81x1024_S1024x1024_1_0_0_1_n_n.lhsIdx_val_of_single rfl i q
theorem labelDot_rhs0 (i : S1024x1024.Idx) (q : dot_S1024x81_S81x1024_S1024x1024_1_0_0_1_n_n.contr.Idx) :
    (dot_S1024x81_S81x1024_S1024x1024_1_0_0_1_n_n.rhsIdx i q 0).val = (q ⟨0, by decide⟩).val :=
  dot_S1024x81_S81x1024_S1024x1024_1_0_0_1_n_n.rhsIdx_val_of_single rfl i q
theorem labelDot_rhs1 (i : S1024x1024.Idx) (q : dot_S1024x81_S81x1024_S1024x1024_1_0_0_1_n_n.contr.Idx) :
    (dot_S1024x81_S81x1024_S1024x1024_1_0_0_1_n_n.rhsIdx i q 1).val = (i 1).val := by
  unfold DotDims.rhsIdx
  rw [dif_neg (show ¬(1 : Fin S81x1024.rank) ∈ dot_S1024x81_S81x1024_S1024x1024_1_0_0_1_n_n.rhsBatch by decide),
    dif_pos (show (1 : Fin S81x1024.rank) ∈ dot_S1024x81_S81x1024_S1024x1024_1_0_0_1_n_n.rhsNonContracting by decide)]
  rfl

/-- A matrix times a transposed matrix into the zero accumulator, at (r, c): the sum over the contracted coordinate k of
    the left matrix at (r, k) times the untransposed right matrix at (c, k). -/
theorem labelDot_apply (x : FVec Ideal S1024x81 .bf16) (y : FVec Ideal S1024x81 .bf16) (h : S1024x81.Transposes [1, 0] S81x1024)
    (r c : Fin 1024) :
    matmul (F := Ideal) dot_S1024x81_S81x1024_S1024x1024_1_0_0_1_n_n none x (transpose S81x1024 [1, 0] y h) (constant (F := Ideal) S1024x1024 .f32 0x00000000#32) (ix2 r c)
      = ∑ k : Fin 81, x (ix2 r k) * y (ix2 c k) := by
  simp only [matmul]
  rw [Ideal.matmul_constant_zero_apply, ← Equiv.sum_comp (contrEquiv1 dot_S1024x81_S81x1024_S1024x1024_1_0_0_1_n_n 81 rfl rfl).symm]
  refine Finset.sum_congr rfl fun k _ => ?_
  have hk := contrEquiv1_symm_val dot_S1024x81_S81x1024_S1024x1024_1_0_0_1_n_n 81 rfl rfl k
  have el : dot_S1024x81_S81x1024_S1024x1024_1_0_0_1_n_n.lhsIdx (ix2 r c) ((contrEquiv1 dot_S1024x81_S81x1024_S1024x1024_1_0_0_1_n_n 81 rfl rfl).symm k) = ix2 r k :=
    funext fun a => Fin.ext (by
      match a with
      | ⟨0, _⟩ => exact labelDot_lhs0 _ _
      | ⟨1, _⟩ => exact (labelDot_lhs1 _ _).trans hk)
  rw [el]
  refine congrArg (fun z => x (ix2 r k) * z) ?_
  refine transpose_apply [1, 0] y h _ (ix2 c k) (fun b => ?_)
  match b with
  | ⟨0, _⟩ => exact ((labelDot_rhs0 (ix2 r c) _).trans hk).symm
  | ⟨1, _⟩ => exact (labelDot_rhs1 (ix2 r c) _).symm

/-- The tile of inner products at (r, c): θ(r, c) = Σ_k F(r, k) · G(c, k). Narrowing to bf16 changes no extended real. -/
theorem pay5_apply (v3 v5 : Vec Ideal S1024x16 .f32) (r c : Fin 1024) :
    k0_pay5 (F := Ideal) v3 v5 (ix2 r c) = ∑ k : Fin 16, v3 (ix2 r k) * v5 (ix2 c k) := by
  unfold k0_pay5
  exact codeDot_apply _ _ transposes_S1024x16_p1_0_S16x1024 r c

/-! ## Casts that move no value, and the two sums of a tile -/

/-- A vector [a] cast to a column [a, 1] reads, at (i, u), the vector at i: the two row-major positions are i · 1 + 0 and i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a tile, at row r: the sum over the columns. -/
theorem lanes_sum (X : FVec Ideal S1024x1024 .f32) (hφ : FKind.Formats .f32)
    (hacc : (0x00000000#32 : BitVec 32) = FKind.add.neutral .f32 hφ) (r : Fin 1024) :
    multiReduction (F := Ideal) .add [1] S1024 X 0x00000000#32 reduces_S1024x1024_S1024 hφ hacc (ix1 r)
      = ∑ c : Fin 1024, X (ix2 r c) := by
  refine (Ideal.multiReduction_add_single X _ reduces_S1024x1024_S1024 hφ hacc (ix1 r)).trans ?_
  refine Finset.sum_congr rfl fun c _ => congrArg X (funext fun a => Fin.ext ?_)
  match a with
  | ⟨0, _⟩ => rfl
  | ⟨1, _⟩ => rfl

/-- The sum down the rows of a column, at its one index: the sum over the rows. -/
theorem rows_sum (Y : FVec Ideal S1024x1 .f32) (hφ : FKind.Formats .f32)
    (hacc : (0x00000000#32 : BitVec 32) = FKind.add.neutral .f32 hφ) :
    multiReduction (F := Ideal) .add [0] S1 Y 0x00000000#32 reduces_S1024x1_S1 hφ hacc (ix1 (0 : Fin 1))
      = ∑ r : Fin 1024, Y (ix2 r (0 : Fin 1)) := by
  refine (Ideal.multiReduction_add_single Y _ reduces_S1024x1_S1 hφ hacc (ix1 (0 : Fin 1))).trans ?_
  refine Finset.sum_congr rfl fun r _ => congrArg Y (funext fun a => Fin.ext ?_)
  match a with
  | ⟨0, _⟩ => rfl
  | ⟨1, _⟩ => rfl

/-- A tile summed along its lanes, stood up as a column, summed down its rows and cast to [1, 1]: at the one index of
    the result, the double sum over the tile. -/
theorem tile_total (X : FVec Ideal S1024x1024 .f32) (hφ hφ' : FKind.Formats .f32)
    (hacc : (0x00000000#32 : BitVec 32) = FKind.add.neutral .f32 hφ)
    (hacc' : (0x00000000#32 : BitVec 32) = FKind.add.neutral .f32 hφ') :
    shapeCast S1x1 (multiReduction (F := Ideal) .add [0] S1
        (shapeCast S1024x1 (multiReduction (F := Ideal) .add [1] S1024 X 0x00000000#32 reduces_S1024x1024_S1024 hφ hacc)
          shapeCasts_S1024_S1024x1)
        0x00000000#32 reduces_S1024x1_S1 hφ' hacc') shapeCasts_S1_S1x1 (ix2 (0 : Fin 1) (0 : Fin 1))
      = ∑ r : Fin 1024, ∑ c : Fin 1024, X (ix2 r c) := by
  refine (shapeCast_a_1a_apply _ shapeCasts_S1_S1x1 0 0).trans ?_
  refine (rows_sum _ hφ' hacc').trans ?_
  refine Finset.sum_congr rfl fun r _ => ?_
  refine (shapeCast_a_a1_apply _ shapeCasts_S1024_S1024x1 r 0).trans ?_
  exact lanes_sum X hφ hacc r

/-- The accumulator's update at its one index: the old value plus the one entry of the [1, 1] total. -/
theorem pay1_apply (v28 : FVec Ideal S1x1 .f32) (v44 : Vec Ideal S1x1x1 .f32) :
    k0_pay1 (F := Ideal) v28 v44 (ix3 0 0 0) = v44 (ix3 0 0 0) + v28 (ix2 0 0) := by
  unfold k0_pay1
  refine (addf_apply _ _ _).trans ?_
  exact congrArg₂ (· + ·) (congrFun (shapeCast_self v44 shapeCasts_S1x1x1_S1x1x1) _)
    (shapeCast_ab_1ab_apply v28 shapeCasts_S1x1_S1x1x1 0 0 0)

/-! ## The two pointwise functions of a tile, and the stored values -/

/-- The kernel's log-add-exp of half an entry against zero, guarded by the test "differs from itself": softplus of half
    the entry. The zero word denotes 0. -/
theorem softplus_scalar (y : EReal) :
    Scalar.select
        (Ideal.cmp .one (y * Ideal.ofBits .f32 0x3F000000#32 - Ideal.ofBits .f32 0x00000000#32)
          (y * Ideal.ofBits .f32 0x3F000000#32 - Ideal.ofBits .f32 0x00000000#32))
        (y * Ideal.ofBits .f32 0x3F000000#32 + Ideal.ofBits .f32 0x00000000#32)
        (max (y * Ideal.ofBits .f32 0x3F000000#32) (Ideal.ofBits .f32 0x00000000#32)
          + Ideal.log1p (Ideal.exp (Ideal.ofBits .f32 0x00000000#32
              - max (y * Ideal.ofBits .f32 0x3F000000#32 - Ideal.ofBits .f32 0x00000000#32)
                  (-(y * Ideal.ofBits .f32 0x3F000000#32 - Ideal.ofBits .f32 0x00000000#32)))))
      = softplus (y * half) := by
  rw [Ideal.ofBits_zero_f32]
  exact softplus_kernel_form (y * half)

/-- The first accumulator after a column step: its old value plus the tile's share Σ_{r,c} softplus(θ(r,c) / 2). -/
theorem acc_softplus (v3 v5 : Vec Ideal S1024x16 .f32) (v44 : Vec Ideal S1x1x1 .f32) :
    k0_pay1 (F := Ideal) (k0_pay6 (F := Ideal) v3 v5) v44 (ix3 0 0 0)
      = v44 (ix3 0 0 0) + ∑ r : Fin 1024, ∑ c : Fin 1024, softplus ((∑ k : Fin 16, v3 (ix2 r k) * v5 (ix2 c k)) * half) := by
  refine (pay1_apply _ v44).trans (congrArg (v44 (ix3 0 0 0) + ·) ?_)
  have e : (∑ r : Fin 1024, ∑ c : Fin 1024, softplus ((∑ k : Fin 16, v3 (ix2 r k) * v5 (ix2 c k)) * half))
      = ∑ r : Fin 1024, ∑ c : Fin 1024, softplus (k0_pay5 (F := Ideal) v3 v5 (ix2 r c) * half) :=
    Finset.sum_congr rfl fun r _ => Finset.sum_congr rfl fun c _ =>
      congrArg (fun t => softplus (t * half)) (pay5_apply v3 v5 r c).symm
  rw [e]
  unfold k0_pay6
  generalize k0_pay5 (F := Ideal) v3 v5 = θ
  refine (tile_total _ _ _ _ _).trans ?_
  refine Finset.sum_congr rfl fun r _ => Finset.sum_congr rfl fun c _ => ?_
  exact softplus_scalar (θ (ix2 r c))

/-- The second accumulator's update at its one index: the old value plus the double sum of the products of two tiles. -/
theorem pay2_apply (v8 v38 : FVec Ideal S1024x1024 .f32) (v49 : Vec Ideal S1x1x1 .f32) :
    k0_pay2 (F := Ideal) v8 v38 v49 (ix3 0 0 0)
      = v49 (ix3 0 0 0) + ∑ r : Fin 1024, ∑ c : Fin 1024, v8 (ix2 r c) * v38 (ix2 r c) := by
  unfold k0_pay2
  refine (addf_apply _ _ _).trans ?_
  refine congrArg₂ (· + ·) (congrFun (shapeCast_self v49 shapeCasts_S1x1x1_S1x1x1) _) ?_
  refine (shapeCast_ab_1ab_apply _ shapeCasts_S1x1_S1x1x1 0 0 0).trans ?_
  exact tile_total (mulf v8 v38) _ _ _ _

/-- The 0/1 mask at (r, c): the bit of the comparison "overlap(r, c) > 0", widened to a word and read as a number. A
    cast to the same shape moves nothing. -/
theorem pay7_apply (v29 v31 : Vec Ideal S1024x81 .bf16) (r c : Fin 1024) :
    k0_pay7 (F := Ideal) v29 v31 (ix2 r c)
      = ((((Ideal.cmp .ogt (∑ l : Fin 81, v29 (ix2 r l) * v31 (ix2 c l)) 0).setWidth 32).toInt : ℝ) : EReal) := by
  have hm : matmul (F := Ideal) (φ₁ := .bf16) (φ₂ := .bf16) dot_S1024x81_S81x1024_S1024x1024_1_0_0_1_n_n none
        (shapeCast S1024x81 v29 shapeCasts_S1024x81_S1024x81)
        (transpose S81x1024 [1, 0] (shapeCast S1024x81 v31 shapeCasts_S1024x81_S1024x81) transposes_S1024x81_p1_0_S81x1024)
        (constant (F := Ideal) S1024x1024 .f32 0x00000000#32) (ix2 r c)
      = ∑ l : Fin 81, v29 (ix2 r l) * v31 (ix2 c l) := by
    rw [shapeCast_self, shapeCast_self]
    exact labelDot_apply v29 v31 transposes_S1024x81_p1_0_S81x1024 r c
  unfold k0_pay7
  refine (congrArg (fun s => ((((Ideal.cmp .ogt s (Ideal.ofBits .f32 0x00000000#32)).setWidth 32).toInt : ℝ) : EReal)) hm).trans ?_
  rw [Ideal.ofBits_zero_f32]

/-- The second accumulator after a column step: its old value plus the tile's share Σ_{r,c} [overlap(r,c) > 0] · θ(r,c). -/
theorem acc_kept (v3 v5 : Vec Ideal S1024x16 .f32) (v29 v31 : Vec Ideal S1024x81 .bf16) (v49 : Vec Ideal S1x1x1 .f32) :
    k0_pay2 (F := Ideal) (k0_pay5 (F := Ideal) v3 v5) (k0_pay7 (F := Ideal) v29 v31) v49 (ix3 0 0 0)
      = v49 (ix3 0 0 0) + ∑ r : Fin 1024, ∑ c : Fin 1024,
          kept (∑ l : Fin 81, v29 (ix2 r l) * v31 (ix2 c l)) (∑ k : Fin 16, v3 (ix2 r k) * v5 (ix2 c k)) := by
  refine (pay2_apply _ _ v49).trans (congrArg (v49 (ix3 0 0 0) + ·) ?_)
  refine Finset.sum_congr rfl fun r _ => Finset.sum_congr rfl fun c _ => ?_
  rw [pay5_apply, pay7_apply]
  exact kept_kernel_form _ _

/-- What the first column step stores in the first accumulator: the zero word, which denotes 0 … -/
theorem zero_softplus : k0_pay3 (F := Ideal) (ix3 0 0 0) = 0 := by
  unfold k0_pay3
  exact Ideal.ofBits_zero_f32

/-- … and in the second. -/
theorem zero_kept : k0_pay4 (F := Ideal) (ix3 0 0 0) = 0 := by
  unfold k0_pay4
  exact Ideal.ofBits_zero_f32

end Cert.KernelIdeal.Tile

end
-- ==== Proof.BlockReads.lean ====
/-
  What each input window's block holds at a grid point, read at coordinates.

  The grid is 8 × 8; point t has row block t / 8 and column block t % 8. Windows 0 and 2 take the row block's 1024 rows of
  the first code matrix and of the first label matrix; windows 1 and 3 take the column block's 1024 rows of the second code
  matrix and of the second label matrix. A block's coordinate (r, k) is the array's coordinate (1024 · block + r, k). The two
  label matrices reach the kernel converted from signed 32-bit words to numbers, which over the extended reals is the number
  the word denotes.
-/
import proofs.«104550_j39221641347692_2_alg».proof.Proof.Gen.KernelIdeal.Frame
import proofs.«104550_j39221641347692_2_alg».proof.Proof.Terms
import Idealize.ShloMosaic.Lib.StableHlo.Run

noncomputable section

namespace Cert.KernelIdeal.Blocks

open Cert.KernelIdeal Cert.KernelIdeal.Gen Cert.PairwiseLoss Idealize.ShloMosaic Idealize.ShloMosaic.ValueIdx Idealize.ShloMosaic.TcCoe

variable (m : (ℓ : Loc nD τ sig) → Buf (Elt Ideal) ℓ)

/-- The row block of grid point t. -/
def bi (t : Fin cfg0.N) : Fin 8 := ⟨t.val / 8, by have := lt_of_lt_of_eq t.isLt (show cfg0.N = 64 from N_0); omega⟩
/-- The column block of grid point t. -/
def bj (t : Fin cfg0.N) : Fin 8 := ⟨t.val % 8, by omega⟩

/-- Window 0's index map over the grid: the row block, and 0. -/
theorem index0 : ∀ t : Fin grid0.N, win0_0.index t 0 = t.val / 8 ∧ win0_0.index t 1 = 0 := by decide +kernel
/-- Window 1's index map over the grid: the column block, and 0. -/
theorem index1 : ∀ t : Fin grid0.N, win0_1.index t 0 = t.val % 8 ∧ win0_1.index t 1 = 0 := by decide +kernel
/-- Window 2's index map over the grid: the row block, and 0. -/
theorem index2 : ∀ t : Fin grid0.N, win0_2.index t 0 = t.val / 8 ∧ win0_2.index t 1 = 0 := by decide +kernel
/-- Window 3's index map over the grid: the column block, and 0. -/
theorem index3 : ∀ t : Fin grid0.N, win0_3.index t 0 = t.val % 8 ∧ win0_3.index t 1 = 0 := by decide +kernel

/-- The first label matrix as the kernel finds it: every word converted to the number it denotes. -/
theorem V_main_v0 (c : Dev nD) :
    (V m c main_v0 : S8192x81.Idx → EReal) = sitofp (F := Ideal) .bf16 (m ((c : Thread nD τ).loc main_arg3)) := by
  dsimp only [Gen.V, Gen.V0]
  simp only [Gen.hostOps0, List.flatten_cons, List.flatten_nil, List.append_nil, List.cons_append, List.nil_append]
  after_results

/-- The second label matrix as the kernel finds it: every word converted to the number it denotes. -/
theorem V_main_v1 (c : Dev nD) :
    (V m c main_v1 : S8192x81.Idx → EReal) = sitofp (F := Ideal) .bf16 (m ((c : Thread nD τ).loc main_arg4)) := by
  dsimp only [Gen.V, Gen.V0]
  simp only [Gen.hostOps0, List.flatten_cons, List.flatten_nil, List.append_nil, List.cons_append, List.nil_append]
  after_results

/-- Window 0 at point t: row r of its block is row 1024 · (t / 8) + r of the first code matrix. -/
theorem iblk0_apply (c : Dev nD) (t : Fin cfg0.N) (r : Fin 1024) (k : Fin 16) :
    (iblk m c 0 t : Vec Ideal S1024x16 .f32) (ix2 r k) = m ((c : Thread nD τ).loc main_arg0) (ix2 (row (bi t) r) k) := by
  have hN : cfg0.N = 64 := N_0
  have hi := index0 t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 8) + r.val; rw [hi.1]; omega
  | ⟨1, _⟩ => show win0_0.index t 1 * 16 + 1 * k.val = k.val; rw [hi.2]; omega

/-- Window 1 at point t: row r of its block is row 1024 · (t % 8) + r of the second code matrix. -/
theorem iblk1_apply (c : Dev nD) (t : Fin cfg0.N) (r : Fin 1024) (k : Fin 16) :
    (iblk m c 1 t : Vec Ideal S1024x16 .f32) (ix2 r k) = m ((c : Thread nD τ).loc main_arg1) (ix2 (row (bj t) r) k) := by
  have hN : cfg0.N = 64 := N_0
  have hi := index1 t
  unfold iblk
  rw [View.read_apply]
  show V m c main_arg1 _ = _
  rw [V_main_arg1]
  congr 1
  funext a
  apply Fin.ext
  match a with
  | ⟨0, _⟩ => show win0_1.index t 0 * 1024 + 1 * r.val = 1024 * (t.val % 8) + r.val; rw [hi.1]; omega
  | ⟨1, _⟩ => show win0_1.index t 1 * 16 + 1 * k.val = k.val; rw [hi.2]; omega

/-- Window 2 at point t: row r of its block is row 1024 · (t / 8) + r of the first label matrix, each word as a number. -/
theorem iblk2_apply (c : Dev nD) (t : Fin cfg0.N) (r : Fin 1024) (l : Fin 81) :
    (iblk m c 2 t : Vec Ideal S1024x81 .bf16) (ix2 r l) = lab (m ((c : Thread nD τ).loc main_arg3) (ix2 (row (bi t) r) l)) := by
  have hN : cfg0.N = 64 := N_0
  have hi := index2 t
  unfold iblk
  rw [View.read_apply]
  show (V m c main_v0 : S8192x81.Idx → EReal) _ = _
  refine (congrFun (V_main_v0 m c) _).trans ?_
  show lab (m ((c : Thread nD τ).loc main_arg3) _) = _
  congr 2
  funext a
  apply Fin.ext
  match a with
  | ⟨0, _⟩ => show win0_2.index t 0 * 1024 + 1 * r.val = 1024 * (t.val / 8) + r.val; rw [hi.1]; omega
  | ⟨1, _⟩ => show win0_2.index t 1 * 81 + 1 * l.val = l.val; rw [hi.2]; omega

/-- Window 3 at point t: row r of its block is row 1024 · (t % 8) + r of the second label matrix, each word as a number. -/
theorem iblk3_apply (c : Dev nD) (t : Fin cfg0.N) (r : Fin 1024) (l : Fin 81) :
    (iblk m c 3 t : Vec Ideal S1024x81 .bf16) (ix2 r l) = lab (m ((c : Thread nD τ).loc main_arg4) (ix2 (row (bj t) r) l)) := by
  have hN : cfg0.N = 64 := N_0
  have hi := index3 t
  unfold iblk
  rw [View.read_apply]
  show (V m c main_v1 : S8192x81.Idx → EReal) _ = _
  refine (congrFun (V_main_v1 m c) _).trans ?_
  show lab (m ((c : Thread nD τ).loc main_arg4) _) = _
  congr 2
  funext a
  apply Fin.ext
  match a with
  | ⟨0, _⟩ => show win0_3.index t 0 * 1024 + 1 * r.val = 1024 * (t.val % 8) + r.val; rw [hi.1]; omega
  | ⟨1, _⟩ => show win0_3.index t 1 * 81 + 1 * l.val = l.val; rw [hi.2]; omega

end Cert.KernelIdeal.Blocks

end
-- ==== Proof.RunningTotal.lean ====
/-
  A running total that restarts every eighth step.

  Number the grid points 0, 1, 2, … row block by row block, eight column steps each. An accumulator that is SET to the
  step's term at the first column step of a row block and has the step's term ADDED at every other step holds, after step
  n, the sum of the terms of row block n / 8 over the column steps 0 … n % 8 — in any additive commutative monoid, by
  induction on n. After the last column step (n % 8 = 7) that is the row block's whole sum.
-/
import Mathlib.Algebra.BigOperators.Fin
import Mathlib.Algebra.BigOperators.Group.Finset.Basic
import Mathlib.Tactic

namespace Cert.PairwiseLoss

/-- The accumulator after step `n`, for `n` below a bound `N` up to which the two update rules are known. -/
theorem running_total {M : Type*} [AddCommMonoid M] (acc : ℕ → M) (T : ℕ → ℕ → M) (N : ℕ)
    (hA : ∀ n, n < N → n % 8 = 0 → acc n = T (n / 8) (n % 8))
    (hB : ∀ n, n < N → ¬n % 8 = 0 → acc n = acc (n - 1) + T (n / 8) (n % 8)) :
    ∀ n, n < N → acc n = ∑ k ∈ Finset.range (n % 8 + 1), T (n / 8) k := by
  intro n
  induction n with
  | zero =>
    intro h
    rw [hA 0 h rfl]
    simp
  | succ n ih =>
    intro h
    by_cases h0 : (n + 1) % 8 = 0
    · rw [hA (n + 1) h h0, h0]
      simp
    · rw [hB (n + 1) h h0, Nat.add_sub_cancel, ih (by omega)]
      have e1 : n / 8 = (n + 1) / 8 := by omega
      have e2 : n % 8 + 1 = (n + 1) % 8 := by omega
      rw [e1, e2, ← Finset.sum_range_succ]

/-- After the last column step of row block `i` the accumulator holds the row block's sum over all eight column steps. -/
theorem running_total_last {M : Type*} [AddCommMonoid M] (acc : ℕ → M) (T : ℕ → ℕ → M) (N : ℕ)
    (hA : ∀ n, n < N → n % 8 = 0 → acc n = T (n / 8) (n % 8))
    (hB : ∀ n, n < N → ¬n % 8 = 0 → acc n = acc (n - 1) + T (n / 8) (n % 8))
    (n : ℕ) (hn : n < N) (h7 : n % 8 = 7) : acc n = ∑ j : Fin 8, T (n / 8) j.val := by
  rw [running_total acc T N hA hB n hn, h7, Finset.sum_range]

end Cert.PairwiseLoss
-- ==== Proof.Accumulate.lean ====
/-
  What the two accumulators hold after each grid point, at the exact values.

  At point t — row block t / 8, column step t % 8 — the body adds to each accumulator the total of tile (t / 8, t % 8):
  the input blocks it loads are rows 1024·(t/8) … of F and of the image labels and rows 1024·(t%8) … of G and of the text
  labels, so its inner products and overlaps are θ and overlap at the global rows, and its two totals are the tile's shares
  of the two sums. The first column step of a row block starts from zero, every other step from what the step before
  left; so after the last column step the accumulator holds the row block's sum over all eight tiles.
-/
import proofs.«104550_j39221641347692_2_alg».proof.Proof.CaseValues
import proofs.«104550_j39221641347692_2_alg».proof.Proof.Payloads
import proofs.«104550_j39221641347692_2_alg».proof.Proof.BlockReads
import proofs.«104550_j39221641347692_2_alg».proof.Proof.RunningTotal
import proofs.«104550_j39221641347692_2_alg».proof.Proof.Terms

noncomputable section

open Idealize.ShloMosaic Idealize.ShloMosaic.TcCoe Idealize.ShloMosaic.ValueIdx

namespace Cert.KernelIdeal.Accumulate

open Cert.KernelIdeal Cert.KernelIdeal.Gen Cert.PairwiseLoss Cert.KernelIdeal.Blocks

/-- A tile's total of the first sum over blocks that ARE the rows of row block `i` of F and of row block `j` of G: tile
    (i, j)'s share. -/
theorem tile_first (x0 x1 : Codes) (i j : Fin 8) (b0 b1 : Vec Ideal S1024x16 .f32)
    (h0 : ∀ (r : Fin 1024) (k : Fin 16), b0 (ix2 r k) = x0 (ix2 (row i r) k))
    (h1 : ∀ (r : Fin 1024) (k : Fin 16), b1 (ix2 r k) = x1 (ix2 (row j r) k)) :
    (∑ r : Fin 1024, ∑ c' : Fin 1024, softplus ((∑ k : Fin 16, b0 (ix2 r k) * b1 (ix2 c' k)) * half))
      = tileSoftplus x0 x1 i j := by
  unfold tileSoftplus theta
  refine Finset.sum_congr rfl fun r _ => Finset.sum_congr rfl fun c' _ => ?_
  refine congrArg (fun z => softplus (z * half)) (Finset.sum_congr rfl fun k _ => ?_)
  rw [h0 r k, h1 c' k]

/-- A tile's total of the second sum likewise, the label blocks being the labels' words read as numbers. -/
theorem tile_second (x0 x1 : Codes) (x3 x4 : PairwiseLoss.Labels) (i j : Fin 8) (b0 b1 : Vec Ideal S1024x16 .f32) (b2 b3 : Vec Ideal S1024x81 .bf16)
    (h0 : ∀ (r : Fin 1024) (k : Fin 16), b0 (ix2 r k) = x0 (ix2 (row i r) k))
    (h1 : ∀ (r : Fin 1024) (k : Fin 16), b1 (ix2 r k) = x1 (ix2 (row j r) k))
    (h2 : ∀ (r : Fin 1024) (l : Fin 81), b2 (ix2 r l) = lab (x3 (ix2 (row i r) l)))
    (h3 : ∀ (r : Fin 1024) (l : Fin 81), b3 (ix2 r l) = lab (x4 (ix2 (row j r) l))) :
    (∑ r : Fin 1024, ∑ c' : Fin 1024, kept (∑ l : Fin 81, b2 (ix2 r l) * b3 (ix2 c' l)) (∑ k : Fin 16, b0 (ix2 r k) * b1 (ix2 c' k)))
      = tileKept x0 x1 x3 x4 i j := by
  unfold tileKept theta overlap
  refine Finset.sum_congr rfl fun r _ => Finset.sum_congr rfl fun c' _ => ?_
  refine congrArg₂ kept (Finset.sum_congr rfl fun l _ => ?_) (Finset.sum_congr rfl fun k _ => ?_)
  · rw [h2 r l, h3 c' l]
  · rw [h0 r k, h1 c' k]

/-- The first accumulator's update over such blocks: the old value plus tile (i, j)'s share. -/
theorem first_update (x0 x1 : Codes) (i j : Fin 8) (b0 b1 : Vec Ideal S1024x16 .f32)
    (h0 : ∀ (r : Fin 1024) (k : Fin 16), b0 (ix2 r k) = x0 (ix2 (row i r) k))
    (h1 : ∀ (r : Fin 1024) (k : Fin 16), b1 (ix2 r k) = x1 (ix2 (row j r) k)) (z : Vec Ideal S1x1x1 .f32) :
    k0_pay1 (F := Ideal) (k0_pay6 (F := Ideal) b0 b1) z (ix3 0 0 0) = z (ix3 0 0 0) + tileSoftplus x0 x1 i j :=
  (Tile.acc_softplus b0 b1 z).trans (congrArg (z (ix3 0 0 0) + ·) (tile_first x0 x1 i j b0 b1 h0 h1))

/-- The second accumulator's update over such blocks. -/
theorem second_update (x0 x1 : Codes) (x3 x4 : PairwiseLoss.Labels) (i j : Fin 8) (b0 b1 : Vec Ideal S1024x16 .f32) (b2 b3 : Vec Ideal S1024x81 .bf16)
    (h0 : ∀ (r : Fin 1024) (k : Fin 16), b0 (ix2 r k) = x0 (ix2 (row i r) k))
    (h1 : ∀ (r : Fin 1024) (k : Fin 16), b1 (ix2 r k) = x1 (ix2 (row j r) k))
    (h2 : ∀ (r : Fin 1024) (l : Fin 81), b2 (ix2 r l) = lab (x3 (ix2 (row i r) l)))
    (h3 : ∀ (r : Fin 1024) (l : Fin 81), b3 (ix2 r l) = lab (x4 (ix2 (row j r) l))) (z : Vec Ideal S1x1x1 .f32) :
    k0_pay2 (F := Ideal) (k0_pay5 (F := Ideal) b0 b1) (k0_pay7 (F := Ideal) b2 b3) z (ix3 0 0 0)
      = z (ix3 0 0 0) + tileKept x0 x1 x3 x4 i j :=
  (Tile.acc_kept b0 b1 b2 b3 z).trans (congrArg (z (ix3 0 0 0) + ·) (tile_second x0 x1 x3 x4 i j b0 b1 b2 b3 h0 h1 h2 h3))

variable (m : (ℓ : Loc nD τ sig) → Buf (Elt Ideal) ℓ)

/-- First accumulator after a point that starts a row block: zero plus the tile's share. -/
theorem first_start (c : Dev nD) (t : Fin cfg0.N) (h0 : t.val % 8 = 0) :
    (outsAt0 m c t.val t.isLt).1 (ix3 0 0 0) = tileSoftplus (m ((c : Thread nD τ).loc main_arg0)) (m ((c : Thread nD τ).loc main_arg1)) (bi t) (bj t) := by
  refine (congrArg (fun p : Vec Ideal S1x1x1 .f32 × Vec Ideal S1x1x1 .f32 => p.1 (ix3 0 0 0)) (outsAt0_A m c t h0)).trans ?_
  refine (congrFun (CaseValue.first_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)) (ix3 0 0 0)).trans ?_
  refine (first_update (m ((c : Thread nD τ).loc main_arg0)) (m ((c : Thread nD τ).loc main_arg1)) (bi t) (bj t) (iblk m c 0 t) (iblk m c 1 t)
    (iblk0_apply m c t) (iblk1_apply m c t) (k0_pay3 (F := Ideal))).trans ?_
  rw [Tile.zero_softplus, zero_add]

/-- First accumulator after any other point: what the point before left, plus the tile's share. -/
theorem first_step (c : Dev nD) (t : Fin cfg0.N) (h0 : ¬t.val % 8 = 0) :
    (outsAt0 m c t.val t.isLt).1 (ix3 0 0 0)
      = (outsAt0 m c (t.val - 1) (Nat.lt_of_le_of_lt (Nat.sub_le _ _) t.isLt)).1 (ix3 0 0 0) + tileSoftplus (m ((c : Thread nD τ).loc main_arg0)) (m ((c : Thread nD τ).loc main_arg1)) (bi t) (bj t) := by
  refine (congrArg (fun p : Vec Ideal S1x1x1 .f32 × Vec Ideal S1x1x1 .f32 => p.1 (ix3 0 0 0)) (outsAt0_B m c t h0)).trans ?_
  refine (congrFun (CaseValue.first_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
    (outsAt0 m c (t.val - 1) (Nat.lt_of_le_of_lt (Nat.sub_le _ _) t.isLt)).1 (outsAt0 m c (t.val - 1) (Nat.lt_of_le_of_lt (Nat.sub_le _ _) t.isLt)).2) (ix3 0 0 0)).trans ?_
  exact first_update (m ((c : Thread nD τ).loc main_arg0)) (m ((c : Thread nD τ).loc main_arg1)) (bi t) (bj t) (iblk m c 0 t) (iblk m c 1 t)
    (iblk0_apply m c t) (iblk1_apply m c t) (outsAt0 m c (t.val - 1) (Nat.lt_of_le_of_lt (Nat.sub_le _ _) t.isLt)).1

/-- Second accumulator after a point that starts a row block. -/
theorem second_start (c : Dev nD) (t : Fin cfg0.N) (h0 : t.val % 8 = 0) :
    (outsAt0 m c t.val t.isLt).2 (ix3 0 0 0) = tileKept (m ((c : Thread nD τ).loc main_arg0)) (m ((c : Thread nD τ).loc main_arg1)) (m ((c : Thread nD τ).loc main_arg3)) (m ((c : Thread nD τ).loc main_arg4)) (bi t) (bj t) := by
  refine (congrArg (fun p : Vec Ideal S1x1x1 .f32 × Vec Ideal S1x1x1 .f32 => p.2 (ix3 0 0 0)) (outsAt0_A m c t h0)).trans ?_
  refine (congrFun (CaseValue.second_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)) (ix3 0 0 0)).trans ?_
  refine (second_update (m ((c : Thread nD τ).loc main_arg0)) (m ((c : Thread nD τ).loc main_arg1)) (m ((c : Thread nD τ).loc main_arg3)) (m ((c : Thread nD τ).loc main_arg4)) (bi t) (bj t) (iblk m c 0 t) (iblk m c 1 t) (iblk m c 2 t) (iblk m c 3 t)
    (iblk0_apply m c t) (iblk1_apply m c t) (iblk2_apply m c t) (iblk3_apply m c t) (k0_pay4 (F := Ideal))).trans ?_
  rw [Tile.zero_kept, zero_add]

/-- Second accumulator after any other point. -/
theorem second_step (c : Dev nD) (t : Fin cfg0.N) (h0 : ¬t.val % 8 = 0) :
    (outsAt0 m c t.val t.isLt).2 (ix3 0 0 0)
      = (outsAt0 m c (t.val - 1) (Nat.lt_of_le_of_lt (Nat.sub_le _ _) t.isLt)).2 (ix3 0 0 0) + tileKept (m ((c : Thread nD τ).loc main_arg0)) (m ((c : Thread nD τ).loc main_arg1)) (m ((c : Thread nD τ).loc main_arg3)) (m ((c : Thread nD τ).loc main_arg4)) (bi t) (bj t) := by
  refine (congrArg (fun p : Vec Ideal S1x1x1 .f32 × Vec Ideal S1x1x1 .f32 => p.2 (ix3 0 0 0)) (outsAt0_B m c t h0)).trans ?_
  refine (congrFun (CaseValue.second_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
    (outsAt0 m c (t.val - 1) (Nat.lt_of_le_of_lt (Nat.sub_le _ _) t.isLt)).1 (outsAt0 m c (t.val - 1) (Nat.lt_of_le_of_lt (Nat.sub_le _ _) t.isLt)).2) (ix3 0 0 0)).trans ?_
  exact second_update (m ((c : Thread nD τ).loc main_arg0)) (m ((c : Thread nD τ).loc main_arg1)) (m ((c : Thread nD τ).loc main_arg3)) (m ((c : Thread nD τ).loc main_arg4)) (bi t) (bj t) (iblk m c 0 t) (iblk m c 1 t) (iblk m c 2 t) (iblk m c 3 t)
    (iblk0_apply m c t) (iblk1_apply m c t) (iblk2_apply m c t) (iblk3_apply m c t) (outsAt0 m c (t.val - 1) (Nat.lt_of_le_of_lt (Nat.sub_le _ _) t.isLt)).2

/-- A tile's share by row block and column step as natural numbers (zero outside the grid). -/
def shareFirst (c : Dev nD) (i k : ℕ) : EReal :=
  if h : i < 8 ∧ k < 8 then
    tileSoftplus (m ((c : Thread nD τ).loc main_arg0)) (m ((c : Thread nD τ).loc main_arg1)) ⟨i, h.1⟩ ⟨k, h.2⟩
  else 0
def shareSecond (c : Dev nD) (i k : ℕ) : EReal :=
  if h : i < 8 ∧ k < 8 then
    tileKept (m ((c : Thread nD τ).loc main_arg0)) (m ((c : Thread nD τ).loc main_arg1))
      (m ((c : Thread nD τ).loc main_arg3)) (m ((c : Thread nD τ).loc main_arg4)) ⟨i, h.1⟩ ⟨k, h.2⟩
  else 0

/-- The accumulators by point number (zero past the grid). -/
def accFirst (c : Dev nD) (n : ℕ) : EReal := if h : n < cfg0.N then (outsAt0 m c n h).1 (ix3 0 0 0) else 0
def accSecond (c : Dev nD) (n : ℕ) : EReal := if h : n < cfg0.N then (outsAt0 m c n h).2 (ix3 0 0 0) else 0

/-- AFTER THE LAST COLUMN STEP of row block `q` the first accumulator holds the row block's sum over its eight tiles. -/
theorem first_last (c : Dev nD) (t : Fin cfg0.N) (h7 : t.val % 8 = 7) (q : Fin 8) (hq : q.val = t.val / 8) :
    (outsAt0 m c t.val t.isLt).1 (ix3 0 0 0)
      = (0 : EReal) + ∑ j : Fin 8, tileSoftplus (m ((c : Thread nD τ).loc main_arg0)) (m ((c : Thread nD τ).loc main_arg1)) q j := by
  have hN : cfg0.N = 64 := N_0
  have ht : t.val < 64 := lt_of_lt_of_eq t.isLt hN
  have key := running_total_last (accFirst m c) (shareFirst m c) cfg0.N
    (fun n hn h0 => by
      have hn' : n < 64 := lt_of_lt_of_eq hn hN
      unfold accFirst shareFirst
      rw [dif_pos hn, dif_pos ⟨by omega, by omega⟩]
      exact first_start m c ⟨n, hn⟩ h0)
    (fun n hn h0 => by
      have hn' : n < 64 := lt_of_lt_of_eq hn hN
      unfold accFirst shareFirst
      rw [dif_pos hn, dif_pos (Nat.lt_of_le_of_lt (Nat.sub_le _ _) hn), dif_pos ⟨by omega, by omega⟩]
      exact first_step m c ⟨n, hn⟩ h0)
    t.val t.isLt h7
  unfold accFirst at key
  rw [dif_pos t.isLt] at key
  rw [key, zero_add]
  refine Finset.sum_congr rfl fun j _ => ?_
  unfold shareFirst
  rw [dif_pos ⟨by omega, j.isLt⟩]
  exact congrArg₂ (tileSoftplus _ _) (Fin.ext hq.symm) rfl

/-- And the second accumulator likewise. -/
theorem second_last (c : Dev nD) (t : Fin cfg0.N) (h7 : t.val % 8 = 7) (q : Fin 8) (hq : q.val = t.val / 8) :
    (outsAt0 m c t.val t.isLt).2 (ix3 0 0 0)
      = (0 : EReal) + ∑ j : Fin 8, tileKept (m ((c : Thread nD τ).loc main_arg0)) (m ((c : Thread nD τ).loc main_arg1))
          (m ((c : Thread nD τ).loc main_arg3)) (m ((c : Thread nD τ).loc main_arg4)) q j := by
  have hN : cfg0.N = 64 := N_0
  have ht : t.val < 64 := lt_of_lt_of_eq t.isLt hN
  have key := running_total_last (accSecond m c) (shareSecond m c) cfg0.N
    (fun n hn h0 => by
      have hn' : n < 64 := lt_of_lt_of_eq hn hN
      unfold accSecond shareSecond
      rw [dif_pos hn, dif_pos ⟨by omega, by omega⟩]
      exact second_start m c ⟨n, hn⟩ h0)
    (fun n hn h0 => by
      have hn' : n < 64 := lt_of_lt_of_eq hn hN
      unfold accSecond shareSecond
      rw [dif_pos hn, dif_pos (Nat.lt_of_le_of_lt (Nat.sub_le _ _) hn), dif_pos ⟨by omega, by omega⟩]
      exact second_step m c ⟨n, hn⟩ h0)
    t.val t.isLt h7
  unfold accSecond at key
  rw [dif_pos t.isLt] at key
  rw [key, zero_add]
  refine Finset.sum_congr rfl fun j _ => ?_
  unfold shareSecond
  rw [dif_pos ⟨by omega, j.isLt⟩]
  exact congrArg₂ (tileKept _ _ _ _) (Fin.ext hq.symm) rfl

end Cert.KernelIdeal.Accumulate

end
-- ==== Proof.KernelValue.lean ====
/-
  The kernel program's run, read at the exact values: its result is the shared tail of the two whole sums.

  Each of the two result arrays [8,1,1] ends holding, at entry (i, 0, 0), zero plus row block i's sum over its eight tiles
  (what the accumulator holds after the block's last column step). The host then sums each array from zero; over the
  extended reals that is the sum of the eight row-block sums, which regrouped is the sum over all 8192 × 8192 pairs.
  The remaining host operations are the tail the reference shares.
-/
import proofs.«104550_j39221641347692_2_alg».proof.Proof.KernelTail
import proofs.«104550_j39221641347692_2_alg».proof.Proof.KernelArrays
import proofs.«104550_j39221641347692_2_alg».proof.Proof.Regroup
import proofs.«104550_j39221641347692_2_alg».proof.Proof.Accumulate
import Idealize.ShloMosaic.PureOps.Ideal.Laws

noncomputable section

open Idealize.ShloMosaic.Pipeline (Dat)

namespace Cert.KernelIdeal.Value

open Cert.KernelIdeal Cert.KernelIdeal.Gen Cert.PairwiseLoss Idealize.ShloMosaic Idealize.ShloMosaic.TcCoe Idealize.SL.Sem

/-- The host's sum of an [8,1,1] array from the initial value zero is, over the extended reals, the sum of its entries. -/
theorem host_sum (a : S8x1x1.Idx → EReal) :
    Host.reduceAdd (F := Ideal) (φ := .f32) a (constant (F := Ideal) S_ .f32 0x00000000#32) reducesTo_S8x1x1_S_d0_1_2 h_S_
      = fun _ => ∑ idx : S8x1x1.Idx, a idx := by
  funext j
  show Ideal.hostReduceAdd reducesTo_S8x1x1_S_d0_1_2 a (Ideal.ofBits .f32 0x00000000#32) j = _
  rw [Ideal.hostReduceAdd_total reducesTo_S8x1x1_S_d0_1_2 (fun b => b.elim0), Ideal.ofBits_zero_f32, zero_add]

/-- The first result array: entry (i, 0, 0) is zero plus row block i's eight tile totals of the first sum. -/
theorem first_array (m : (ℓ : Loc nD τ sig) → Buf (Elt Ideal) ℓ) (c : Dev nD) :
    (dats m 0 c).arrAt 4 cfg0.N = fun idx : S8x1x1.Idx => (0 : EReal) + ∑ j : Fin 8,
      tileSoftplus (m ((c : Thread nD τ).loc main_arg0)) (m ((c : Thread nD τ).loc main_arg1)) (idx 0) j :=
  Arrays.final4 m c _ (fun t h7 q hq => Accumulate.first_last m c t h7 q hq)

/-- The second result array: entry (i, 0, 0) is zero plus row block i's eight tile totals of the second sum. -/
theorem second_array (m : (ℓ : Loc nD τ sig) → Buf (Elt Ideal) ℓ) (c : Dev nD) :
    (dats m 0 c).arrAt 5 cfg0.N = fun idx : S8x1x1.Idx => (0 : EReal) + ∑ j : Fin 8,
      tileKept (m ((c : Thread nD τ).loc main_arg0)) (m ((c : Thread nD τ).loc main_arg1))
        (m ((c : Thread nD τ).loc main_arg3)) (m ((c : Thread nD τ).loc main_arg4)) (idx 0) j :=
  Arrays.final5 m c _ (fun t h7 q hq => Accumulate.second_last m c t h7 q hq)

/-- The host's sum of the first result array is the first sum over all pairs. -/
theorem first_sum (m : (ℓ : Loc nD τ sig) → Buf (Elt Ideal) ℓ) (c : Dev nD) :
    Host.reduceAdd (F := Ideal) ((dats m 0 c).arrAt 4 cfg0.N) (constant (F := Ideal) S_ .f32 0x00000000#32) reducesTo_S8x1x1_S_d0_1_2 h_S_
      = fun _ => sumSoftplus (m ((c : Thread nD τ).loc main_arg0)) (m ((c : Thread nD τ).loc main_arg1)) := by
  rw [first_array m c]
  refine (host_sum _).trans ?_
  funext _
  exact total_softplus _ _

/-- The host's sum of the second result array is the second sum over all pairs. -/
theorem second_sum (m : (ℓ : Loc nD τ sig) → Buf (Elt Ideal) ℓ) (c : Dev nD) :
    Host.reduceAdd (F := Ideal) ((dats m 0 c).arrAt 5 cfg0.N) (constant (F := Ideal) S_ .f32 0x00000000#32) reducesTo_S8x1x1_S_d0_1_2 h_S_
      = fun _ => sumKept (m ((c : Thread nD τ).loc main_arg0)) (m ((c : Thread nD τ).loc main_arg1))
          (m ((c : Thread nD τ).loc main_arg3)) (m ((c : Thread nD τ).loc main_arg4)) := by
  rw [second_array m c]
  refine (host_sum _).trans ?_
  funext _
  exact total_kept _ _ _ _

/-- The kernel program's run, read: its result at the shared tail of the two whole sums, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = tail Gen.reducesTo_S8192x16_S_d0_1 Gen.reducesTo_S8192x16_S8192_d1 Gen.reducesTo_S8192_S_d0 Gen.h_S_
            (fun _ => sumSoftplus (m ((c.tc : Thread nD τ).loc main_arg0)) (m ((c.tc : Thread nD τ).loc main_arg1)))
            (fun _ => sumKept (m ((c.tc : Thread nD τ).loc main_arg0)) (m ((c.tc : Thread nD τ).loc main_arg1)) (m ((c.tc : Thread nD τ).loc main_arg3)) (m ((c.tc : Thread nD τ).loc main_arg4)))
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v22 (Pipeline.mem_restRefs_of main_v22 (by decide) (by decide))).trans
        ((Tail.result_eq m c).trans (by rw [first_sum m c, second_sum m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.lean ====
/-
  The claim. Three programs — the kernel as printed, the kernel read over the extended reals, the reference read over the
  extended reals — each run and leave their five arguments unchanged; and over the extended reals, from arguments that
  agree, the kernel and the reference end with the same number, the pairwise hashing loss

      Σ_{a,b} softplus(θ(a,b) / 2)  −  Σ_{a,b} [overlap(a,b) > 0] · θ(a,b)  +  ½ · Σ ((B − F)² + (B − G)²)  +  ½ · (Σ_a (Σ_k F_ak)² + Σ_a (Σ_k G_ak)²).

  What joins the two sides: the reference adds over all 8192 × 8192 pairs (a, b) at once, the kernel over the 8 × 8 tiles of
  1024 × 1024 pairs (row i r, row j c), and a finite sum may be regrouped; softplus and the kept value θ · [overlap > 0] are
  each ONE function of extended reals that the two programs spell differently; and the last two terms with the final
  combination are one and the same chain of operations in both programs, compared as a whole.
-/
import proofs.«104550_j39221641347692_2_alg».proof.Defs
import proofs.«104550_j39221641347692_2_alg».proof.Proof.Gen.Kernel
import proofs.«104550_j39221641347692_2_alg».proof.Proof.Gen.Kernel.Skeleton
import proofs.«104550_j39221641347692_2_alg».proof.Proof.Gen.Kernel.Launch
import proofs.«104550_j39221641347692_2_alg».proof.Proof.Gen.Kernel.Points
import proofs.«104550_j39221641347692_2_alg».proof.Proof.Gen.Kernel.Frame
import proofs.«104550_j39221641347692_2_alg».proof.Proof.Gen.KernelIdeal
import proofs.«104550_j39221641347692_2_alg».proof.Proof.Gen.KernelIdeal.Skeleton
import proofs.«104550_j39221641347692_2_alg».proof.Proof.Gen.KernelIdeal.Launch
import proofs.«104550_j39221641347692_2_alg».proof.Proof.Gen.KernelIdeal.Points
import proofs.«104550_j39221641347692_2_alg».proof.Proof.Gen.KernelIdeal.Frame
import proofs.«104550_j39221641347692_2_alg».proof.Proof.Gen.ReferenceIdeal
import proofs.«104550_j39221641347692_2_alg».proof.Proof.Gen.Pre_finite_inputs
import proofs.«104550_j39221641347692_2_alg».proof.Proof.ReferenceValue
import proofs.«104550_j39221641347692_2_alg».proof.Proof.KernelValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: it runs, and its run's statement with the result dropped is
    its frame. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals: there is nothing to preserve. -/
theorem preserves : Cert.preserves_Kernel_KernelIdeal := trivial

/-- Over the extended reals both programs end at the shared chain applied to the two sums over all 8192 × 8192 pairs of
    arguments that agree: the kernel by its run read tile by tile, the reference by its run read at once. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
